-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : IVec S4096x4096 32) (main_arg2 : FVec F S4096x4096 .f32) (main_arg3 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg2
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S256x4096 : Shape := ⟨2, ![256, 4096]⟩
abbrev S1x4096 : Shape := ⟨2, ![1, 4096]⟩
abbrev S1024x2048 : Shape := ⟨2, ![1024, 2048]⟩
abbrev S1x1024 : Shape := ⟨2, ![1, 1024]⟩
abbrev S1024x1024 : Shape := ⟨2, ![1024, 1024]⟩

abbrev nBuf : Space → Nat
  | .hbm => 8
  | .vmem => 15
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S4096x4096, .f32⟩
  | .hbm, ⟨3, _⟩ => ⟨S4096, .f32⟩
  | .hbm, ⟨4, _⟩ => ⟨S4096x4096, .bf16⟩
  | .hbm, ⟨5, _⟩ => ⟨S1x4096, .f32⟩
  | .hbm, ⟨6, _⟩ => ⟨S8192x4096, .bf16⟩
  | .hbm, ⟨7, _⟩ => ⟨S8192x4096, .f32⟩
  | .local _ .vmem, ⟨0, _⟩ => ⟨S256x4096, .i32⟩
  | .local _ .vmem, ⟨1, _⟩ => ⟨S256x4096, .i32⟩
  | .local _ .vmem, ⟨2, _⟩ => ⟨S256x4096, .f32⟩
  | .local _ .vmem, ⟨3, _⟩ => ⟨S256x4096, .f32⟩
  | .local _ .vmem, ⟨4, _⟩ => ⟨S256x4096, .bf16⟩
  | .local _ .vmem, ⟨5, _⟩ => ⟨S256x4096, .bf16⟩
  | .local _ .vmem, ⟨6, _⟩ => ⟨S1024x2048, .bf16⟩
  | .local _ .vmem, ⟨7, _⟩ => ⟨S1024x2048, .bf16⟩
  | .local _ .vmem, ⟨8, _⟩ => ⟨S1024x2048, .bf16⟩
  | .local _ .vmem, ⟨9, _⟩ => ⟨S1024x2048, .bf16⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![8, 4, 2], ![false, false, false]⟩

def k1_cond2 (i : grid1.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  inb_S256x4096_S256x4096_0_0 : ∀ a, (![0, 0] : Fin 2 → Nat) a + S256x4096.size a ≤ S256x4096.size a
  h_S256x4096 : 0 < S256x4096.numel
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x2048_S1024x2048_S1024x1024_1_1_0_0_n_n_wf : DotDims.WF S1024x2048 S1024x2048 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .i32 = 32 ∨ (Rect.block (s := S4096x4096) S256x4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .bf16 = 32 ∨ (Rect.block (s := S4096x4096) S256x4096.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x4096.size a
  hwx1_0 : ∀ i : grid1.Coords, EltTy.bits .bf16 = 32 ∨ (Rect.block (s := S8192x4096) S1024x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S4096x4096.size a
  hwx1_1 : ∀ i : grid1.Coords, EltTy.bits .bf16 = 32 ∨ (Rect.block (s := S4096x4096) S1024x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x4096.size a
  hwx1_3 : ∀ i : grid1.Coords, EltTy.bits .f32 = 32 ∨ (Rect.block (s := S8192x4096) S1024x1024.size (cc1_transform_3 i) (hinb1_3 i)).WholeWords (EltTy.packing .f32)

variable [Facts₀]

def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S4096x4096, .f32⟩
  | .hbm, ⟨3, _⟩ => ⟨S4096, .f32⟩
  | .hbm, ⟨4, _⟩ => ⟨S4096x4096, .f32⟩
  | .hbm, ⟨5, _⟩ => ⟨S4096x4096, .f32⟩
  | .hbm, ⟨6, _⟩ => ⟨S8192x4096, .f32⟩
  | .hbm, ⟨7, _⟩ => ⟨S1x4096, .f32⟩
  | .hbm, ⟨8, _⟩ => ⟨S8192x4096, .f32⟩
  | .hbm, ⟨9, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Bits.Blend.lean ====
/-
  The weight-blend region (the first pallas_call) at any float instance, for any contents `V` of the core's buffers
  when the region is entered.

  The grid has 16 points; point `t` handles rows 256·t … 256·t+255 of the two 4096×4096 weight arrays.  The body
  loads the block of the integer base weights and the block of the tags, converts the first to floats, adds, rounds
  to bf16 and stores the result over the whole output block.  So after the body the output window's buffer holds
  `blendOut` of the two input blocks — one store covering the block — and the input buffers are untouched.  From this
  the per-point obligation of the pipeline follows with the region invariant left alone: the body names no scratch
  buffer, no semaphore and no random bits.
-/
import proofs.«144949_j90048284328682_2_alg».proof.Proof.Gen.Kernel.Launch
import proofs.«144949_j90048284328682_2_alg».proof.Proof.Gen.Kernel.Skeleton
import proofs.«144949_j90048284328682_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- rectangles of these extents are compared coordinate by coordinate along the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The blocks of the three windows -/

/-- The block of window `w` at grid point `t`: rows 256·t … 256·t+255 of the window's array as the region finds it. -/
def blendBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The buffer the body reads the base weights from holds their block at every point: it is fetched at every point,
    and the body leaves it as it found it. -/
theorem blendBefore0_of {c : Dev nD} (dat : Dat τ (Elt F) Unit ℕ (UR sig nD τ) ℕ cfg0 c) (hA : dat.A 0 = V c (Pipeline.arrRef spec0 0))
    (hafter : ∀ t, dat.after 0 t = blendBlk V c 0 t) (t : Fin cfg0.N) (d) : dat.before 0 t d = blendBlk V c 0 t :=
  (dat.before_in_eq_fetched 0 rfl (fun _ => rfl) (fun _ _ _ => rfl) (fun t => by rw [hafter]; unfold Dat.blockOf blendBlk; rw [hA]; try rfl) t d).trans
    (by unfold Dat.fetched Dat.blockOf blendBlk; rw [hA]; try rfl)

/-- The same for the tags. -/
theorem blendBefore1_of {c : Dev nD} (dat : Dat τ (Elt F) Unit ℕ (UR sig nD τ) ℕ cfg0 c) (hA : dat.A 1 = V c (Pipeline.arrRef spec0 1))
    (hafter : ∀ t, dat.after 1 t = blendBlk V c 1 t) (t : Fin cfg0.N) (d) : dat.before 1 t d = blendBlk V c 1 t :=
  (dat.before_in_eq_fetched 1 rfl (fun _ => rfl) (fun _ _ _ => rfl) (fun t => by rw [hafter]; unfold Dat.blockOf blendBlk; rw [hA]; try rfl) t d).trans
    (by unfold Dat.fetched Dat.blockOf blendBlk; rw [hA]; try rfl)

/-! ## What the body stores -/

/-- The one rectangle the body touches: the whole 256×4096 block. -/
abbrev blendRect : Rect S256x4096 := Rect.unit (s := S256x4096) ![0, 0] S256x4096.size inb_S256x4096_S256x4096_0_0

/-- The output block after the body, from the two input blocks: the blended weights stored over the whole block. -/
def blendOut (wb : Vec F S256x4096 .i32) (tag : Vec F S256x4096 .f32) : Vec F S256x4096 .bf16 :=
  View.canon [⟨blendRect, k0_pay1 (View.ld wb blendRect) (View.ld tag blendRect)⟩]

/-- That one store covers the block. -/
theorem blendCover (p : Vec F S256x4096 .bf16) (y : S256x4096.Idx) :
    ∃ pc ∈ ([⟨blendRect, p⟩] : List (View.Piece (Elt F) S256x4096 .bf16)), y ∈ pc.1.set :=
  View.cover_of_tiled [⟨blendRect, p⟩] S256x4096.size (by rfl) y

/-! ## The body's triple -/

set_option maxHeartbeats 1000000 in
/-- On whole buffers — the two inputs at contents `wb`, `tag`, the output at anything — the body runs to the end, leaves
    the inputs as they were and the output at `blendOut wb tag`. -/
theorem blendKernel (c : Dev nD) (E : Set ℕ) (i : grid0.Coords)
    (arg1 : Memref sig .tc .vmem S256x4096 .i32) (harg1 : arg1.IsWhole) (arg2 : Memref sig .tc .vmem S256x4096 .f32) (harg2 : arg2.IsWhole)
    (arg3 : Memref sig .tc .vmem S256x4096 .bf16) (harg3 : arg3.IsWhole)
    (wb : Vec F S256x4096 .i32) (tag : Vec F S256x4096 .f32) (K : PUnit → sProp 𝕄) :
    iprop(owns (c : Thread nD τ) arg1 fullShare wb ∗ owns (c : Thread nD τ) arg2 fullShare tag ∗ (∃ d, owns (c : Thread nD τ) arg3 fullShare d)
        ∗ (iprop(owns (c : Thread nD τ) arg1 fullShare wb ∗ owns (c : Thread nD τ) arg2 fullShare tag ∗ owns (c : Thread nD τ) arg3 fullShare (blendOut wb tag)) -∗ K ⟨⟩))
      ⊢ wp frame (wpE (defs₀ (F := F)) Variants.none c none) E (cc0__weight_kernel i arg1 harg1 arg2 harg2 arg3 harg3) K := by
  simp only [cc0__weight_kernel_eq_skeleton]; unfold cc0__weight_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (blendCover _)

/-! ## The pipeline's proof data -/

/-- What the pipeline is told about the region on core `c`: the arrays as the region finds them; after the body at
    point `t` each input buffer still at its block and the output buffer at `blendOut` of the two blocks; the region
    invariant the plain one (the other scoped buffers and the random-bit register, untouched); nothing owed. -/
def blendDat (c : Dev nD) : Dat τ (Elt F) Unit ℕ (UR sig nD τ) ℕ cfg0 c where
  A w := V c (Pipeline.arrRef spec0 w)
  after w t := match w with
    | ⟨0, _⟩ => blendBlk V c 0 t
    | ⟨1, _⟩ => blendBlk V c 1 t
    | ⟨2, _⟩ => blendOut (blendBlk V c 0 t) (blendBlk V c 1 t)
  Φ _ := Pipeline.ΦA spec0 c
  q _ := fullShare
  owed _ := 0

theorem blendA_eq (c : Dev nD) (w : Fin cfg0.W) : (blendDat V c).A w = V c (Pipeline.arrRef spec0 w) := by
  dsimp only [blendDat]

theorem blendAfter0 (c : Dev nD) (t : Fin cfg0.N) : (blendDat V c).after 0 t = blendBlk V c 0 t := by dsimp only [blendDat]
theorem blendAfter1 (c : Dev nD) (t : Fin cfg0.N) : (blendDat V c).after 1 t = blendBlk V c 1 t := by dsimp only [blendDat]
theorem blendAfter2 (c : Dev nD) (t : Fin cfg0.N) :
    (blendDat V c).after 2 t = blendOut (blendBlk V c 0 t) (blendBlk V c 1 t) := by dsimp only [blendDat]

theorem blendBefore0 (c : Dev nD) (t : Fin cfg0.N) (d) : (blendDat V c).before 0 t d = blendBlk V c 0 t :=
  blendBefore0_of V (blendDat V c) (blendA_eq V c 0) (blendAfter0 V c) t d
theorem blendBefore1 (c : Dev nD) (t : Fin cfg0.N) (d) : (blendDat V c).before 1 t d = blendBlk V c 1 t :=
  blendBefore1_of V (blendDat V c) (blendA_eq V c 1) (blendAfter1 V c) t d

/-! ## The obligation at a point -/

/-- What the body is called with at point `t`: the invariant, the core's dues, and the three current buffers. -/
def blendPre (c : Dev nD) (t : Fin cfg0.N) : sProp 𝕄 :=
  iprop((blendDat V c).Φ t.castSucc ∗ (blendDat V c).owesAt () t.castSucc
    ∗ (∃ d, owns (c : Thread nD τ) (st0_0 t) fullShare ((blendDat V c).before 0 t d))
    ∗ (∃ d, owns (c : Thread nD τ) (st0_1 t) fullShare ((blendDat V c).before 1 t d))
    ∗ (∃ d, owns (c : Thread nD τ) (st0_2 t) fullShare ((blendDat V c).before 2 t d)))

/-- What it hands back. -/
def blendPost (c : Dev nD) (t : Fin cfg0.N) : sProp 𝕄 :=
  iprop((blendDat V c).Φ t.succ ∗ (blendDat V c).owesAt () t.succ
    ∗ owns (c : Thread nD τ) (st0_0 t) fullShare ((blendDat V c).after 0 t)
    ∗ owns (c : Thread nD τ) (st0_1 t) fullShare ((blendDat V c).after 1 t)
    ∗ owns (c : Thread nD τ) (st0_2 t) fullShare ((blendDat V c).after 2 t))

/-- The body at any point: the input buffers hold their blocks, so `blendKernel` applies; the invariant and the dues
    pass through unread. -/
theorem blendBody (c : Dev nD) (t : Fin cfg0.N) :
    blendPre V c t ⊢ wp frame (wpE (defs₀ (F := F)) Variants.none c none) Set.univ (bodyAt0 t) (fun _ => blendPost V c t) := by
  unfold blendPre blendPost bodyAt0
  simp only [blendBefore0, blendBefore1]
  rw [show (blendDat V c).Φ t.succ = (blendDat V c).Φ t.castSucc from rfl,
    show (blendDat V c).owesAt () t.succ = (blendDat V c).owesAt () t.castSucc from rfl,
    blendAfter0, blendAfter1, blendAfter2]
  iintro ⟨HΦ, Ho, ⟨%d0, H0⟩, ⟨%d1, H1⟩, ⟨%d2, H2⟩⟩
  iapply (blendKernel c Set.univ _ _ _ _ _ _ _ (blendBlk V c 0 t) (blendBlk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation for the region, at every point. -/
theorem blendObligation (c : Dev nD) : BodyObligation (blendDat (F := F) V c) (defs₀ (F := F)) Variants.none () Set.univ := fun t => by
  rw [bigSep_W0, bigSep_W0]
  exact blendBody V c t

end Cert.Kernel.Hand

end
-- ==== Proof.Bits.MatmulBase.lean ====
/-
  The matmul region (the second pallas_call): what its two kinds of grid point share.

  The grid is 8 × 4 × 2: block-row `i` of the batch, block-column `j` of the output features, and half `k` of the
  contraction, `k` running fastest, so point `t` has `k = t mod 2`.  The body keeps a 1024×1024 accumulator in a
  scratch buffer of its own.  At `k = 0` it first zeroes the accumulator; at every point it adds the product of the
  current 1024×2048 blocks of the batch and of the blended weights; at `k = 1` it adds the bias row and stores the sum
  into the output block, which the pipeline then writes back.  So there are two kinds of point: an OPENING point
  (`k = 0`: the accumulator restarted, the output buffer left alone and not written back) and a CLOSING point (`k = 1`:
  the accumulator continued from what the opening point left, the output stored).

  Here: each window's block at a point and that the three input buffers hold their blocks at every point (the bias
  row is fetched only when its block index may have moved, and is still there otherwise); the two branch conditions
  decided over the grid; where the output window is idle; names for the buffers the body is called with; and the
  region's plain invariant with the accumulator's buffer split off.
-/
import proofs.«144949_j90048284328682_2_alg».proof.Proof.Gen.Kernel.Launch
import proofs.«144949_j90048284328682_2_alg».proof.Proof.Gen.Kernel.Skeleton
import proofs.«144949_j90048284328682_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- rectangles of these extents are compared coordinate by coordinate along the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The blocks of the four windows -/

/-- The block of window `w` at grid point `t`, read off the window's array as the region finds it. -/
def mmBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The buffer of the batch rows holds their block at every point. -/
theorem mmBefore0_of {c : Dev nD} (dat : Dat τ (Elt F) Unit ℕ (UR sig nD τ) ℕ cfg1 c) (hA : dat.A 0 = V c (Pipeline.arrRef spec1 0))
    (hafter : ∀ t, dat.after 0 t = mmBlk V c 0 t) (t : Fin cfg1.N) (d) : dat.before 0 t d = mmBlk V c 0 t :=
  (dat.before_in_eq_fetched 0 rfl (fun _ => rfl) (fun _ _ _ => rfl) (fun t => by rw [hafter]; unfold Dat.blockOf mmBlk; rw [hA]; try rfl) t d).trans
    (by unfold Dat.fetched Dat.blockOf mmBlk; rw [hA]; try rfl)

/-- The buffer of the blended weights holds their block at every point. -/
theorem mmBefore1_of {c : Dev nD} (dat : Dat τ (Elt F) Unit ℕ (UR sig nD τ) ℕ cfg1 c) (hA : dat.A 1 = V c (Pipeline.arrRef spec1 1))
    (hafter : ∀ t, dat.after 1 t = mmBlk V c 1 t) (t : Fin cfg1.N) (d) : dat.before 1 t d = mmBlk V c 1 t :=
  (dat.before_in_eq_fetched 1 rfl (fun _ => rfl) (fun _ _ _ => rfl) (fun t => by rw [hafter]; unfold Dat.blockOf mmBlk; rw [hA]; try rfl) t d).trans
    (by unfold Dat.fetched Dat.blockOf mmBlk; rw [hA]; try rfl)

/-- The buffer of the bias row holds its block at every point: where it is not fetched its block index has not moved. -/
theorem mmBefore2_of {c : Dev nD} (dat : Dat τ (Elt F) Unit ℕ (UR sig nD τ) ℕ cfg1 c) (hA : dat.A 2 = V c (Pipeline.arrRef spec1 2))
    (hafter : ∀ t, dat.after 2 t = mmBlk V c 2 t) (t : Fin cfg1.N) (d) : dat.before 2 t d = mmBlk V c 2 t :=
  (dat.before_in_eq_fetched 2 rfl (fun _ => rfl) (fun _ _ _ => rfl) (fun t => by rw [hafter]; unfold Dat.blockOf mmBlk; rw [hA]; try rfl) t d).trans
    (by unfold Dat.fetched Dat.blockOf mmBlk; rw [hA]; try rfl)

/-! ## The two branch conditions over the grid -/

/-- "This is the first half of the contraction" (`k = 0`), as the body computes it from the grid coordinates. -/
abbrev isOpening (i : grid1.Coords) : Prop := (Scalar.cmpi .ne (Scalar.extui (Scalar.cmpi .eq (BitVec.ofNat 32 (i 2).val) 0#32)) 0#32) = 1#1
/-- It holds exactly at the even points. -/
theorem isOpening_iff : ∀ t : Fin cfg1.N, isOpening (grid1.coords t) ↔ t.val % 2 = 0 :=
  (by decide +kernel : ∀ t : Fin grid1.N, isOpening (grid1.coords t) ↔ t.val % 2 = 0)

/-- "This is the last half of the contraction" (`k = 1`), as the body computes it. -/
abbrev isClosing (i : grid1.Coords) : Prop := k1_cond2 i = 1#1
/-- It holds exactly at the odd points. -/
theorem isClosing_iff : ∀ t : Fin cfg1.N, isClosing (grid1.coords t) ↔ t.val % 2 = 1 :=
  (by decide +kernel : ∀ t : Fin grid1.N, isClosing (grid1.coords t) ↔ t.val % 2 = 1)

/-! ## Where the windows are idle -/

theorem mmLive0 : ∀ t : Fin cfg1.N, cfg1.idle 0 (grid1.coords t) = false := by decide +kernel
theorem mmLive1 : ∀ t : Fin cfg1.N, cfg1.idle 1 (grid1.coords t) = false := by decide +kernel
theorem mmLive2 : ∀ t : Fin cfg1.N, cfg1.idle 2 (grid1.coords t) = false := by decide +kernel
/-- At an opening point the output window is idle: the body stores nothing into it, -/
theorem mmIdle3 : ∀ t : Fin cfg1.N, isOpening (grid1.coords t) → ¬isClosing (grid1.coords t) → cfg1.idle 3 (grid1.coords t) = true := by decide +kernel
/-- and the pipeline does not write it back there. -/
theorem mmNoFlush3 : ∀ t : Fin cfg1.N, isOpening (grid1.coords t) → ¬isClosing (grid1.coords t) → (cfg1.win 3).flush t = false := by decide +kernel
/-- At a closing point the output window is live. -/
theorem mmLive3 : ∀ t : Fin cfg1.N, ¬isOpening (grid1.coords t) → isClosing (grid1.coords t) → cfg1.idle 3 (grid1.coords t) = false := by decide +kernel

/-! ## The buffers the body is called with -/

/-- Each window's current buffer at point `t`, spelled as the pipeline passes it, and that it is a whole buffer. -/
abbrev mmM0 (t : Fin cfg1.N) : Memref sig .tc .vmem S1024x2048 .bf16 := win1_0.stage (cfg1.slots t 0)
abbrev mmH0 (t : Fin cfg1.N) : (mmM0 t).IsWhole := hstage1_0 ((cfg1.slots t 0).cast nbuf1_0)
abbrev mmM1 (t : Fin cfg1.N) : Memref sig .tc .vmem S1024x2048 .bf16 := win1_1.stage (cfg1.slots t 1)
abbrev mmH1 (t : Fin cfg1.N) : (mmM1 t).IsWhole := hstage1_1 ((cfg1.slots t 1).cast nbuf1_1)
abbrev mmM2 (t : Fin cfg1.N) : Memref sig .tc .vmem S1x1024 .f32 := win1_2.stage (cfg1.slots t 2)
abbrev mmH2 (t : Fin cfg1.N) : (mmM2 t).IsWhole := hstage1_2 ((cfg1.slots t 2).cast nbuf1_2)
abbrev mmM3 (t : Fin cfg1.N) : Memref sig .tc .vmem S1024x1024 .f32 := win1_3.stage (cfg1.slots t 3)
abbrev mmH3 (t : Fin cfg1.N) : (mmM3 t).IsWhole := hstage1_3 ((cfg1.slots t 3).cast nbuf1_3)
/-- The accumulator's buffer: a whole scoped buffer of the kernel's own. -/
abbrev accM : Memref sig .tc .vmem S1024x1024 .f32 := Memref.whole cc1_scratch0
/-- What the region holds of its own besides the accumulator: the six buffers of the other region's windows, each at
    anything, and the random-bit register at some state.  The body never touches any of it. -/
def mmRest (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ r, prngReg c r))

/-- The region's plain invariant spelled out: the six buffers of the other region, the accumulator at anything, and
    the random-bit register. -/
theorem mmPlain_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) accM fullShare d)) ∗ (∃ r, prngReg c r)) := by
  unfold Pipeline.ΦA; rw [scopedRest1_eq]; simp only [accM, owns_whole]; try rfl

/-- The plain invariant is the accumulator at anything beside the rest, -/
theorem mmPlain_split (c : Dev nD) :
    (Pipeline.ΦA spec1 c : sProp 𝕄) ⊢ iprop((∃ d, owns (c : Thread nD τ) accM fullShare d) ∗ mmRest (F := F) c) := by
  rw [mmPlain_eq]; unfold mmRest
  iintro ⟨⟨R1, R2, R3, R4, R5, R6, HS⟩, Hg⟩
  isplitl [HS]; · iexact HS
  isplitl [R1]; · iexact R1
  isplitl [R2]; · iexact R2
  isplitl [R3]; · iexact R3
  isplitl [R4]; · iexact R4
  isplitl [R5]; · iexact R5
  isplitl [R6]; · iexact R6
  iexact Hg

/-- and conversely. -/
theorem mmPlain_join (c : Dev nD) :
    iprop((∃ d, owns (c : Thread nD τ) accM fullShare d) ∗ mmRest (F := F) c) ⊢ (Pipeline.ΦA spec1 c : sProp 𝕄) := by
  rw [mmPlain_eq]; unfold mmRest
  iintro ⟨HS, R1, R2, R3, R4, R5, R6, Hg⟩
  isplitr [Hg]
  · isplitl [R1]; · iexact R1
    isplitl [R2]; · iexact R2
    isplitl [R3]; · iexact R3
    isplitl [R4]; · iexact R4
    isplitl [R5]; · iexact R5
    isplitl [R6]; · iexact R6
    iexact HS
  iexact Hg

end Cert.Kernel.Hand

end
-- ==== Proof.Bits.MatmulOpen.lean ====
/-
  The matmul body at an OPENING point (`k = 0`, the first half of the contraction), run once on arbitrary whole buffers.

  The accumulator is zeroed and the product of the two input blocks is added to it; the second conditional is not
  taken, so the bias row is not read and the output buffer is neither read nor written.  The run records what the
  accumulator's buffer ends with as the list of the body's stores into it (last store first).
-/
import proofs.«144949_j90048284328682_2_alg».proof.Proof.Gen.Kernel.Launch
import proofs.«144949_j90048284328682_2_alg».proof.Proof.Gen.Kernel.Skeleton
import proofs.«144949_j90048284328682_2_alg».proof.Proof.Gen.Kernel.Points
import proofs.«144949_j90048284328682_2_alg».proof.Proof.Bits.MatmulBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- rectangles of these extents are compared coordinate by coordinate along the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores an opening point makes into the accumulator (last first), WITH the proof that on whole buffers — the
    three inputs at contents `x`, `w`, `b`, the output at contents `o` it does not touch, the accumulator at anything —
    the body runs to the end holding the inputs and the output as they were and the accumulator with those stores
    written. -/
noncomputable def mmOpenRun (c : Dev nD) (i : grid1.Coords)
    (arg3 : Memref sig .tc .vmem S1024x2048 .bf16) (harg3 : arg3.IsWhole) (arg4 : Memref sig .tc .vmem S1024x2048 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hc0 : isOpening i) (hc1 : ¬isClosing i)
    (x : Vec F S1024x2048 .bf16) (w : Vec F S1024x2048 .bf16) (b : Vec F S1x1024 .f32) :
    { LS : List (View.Piece (Elt F) S1024x1024 .f32) //
      ∀ (o : Vec F S1024x1024 .f32) (E : Set ℕ) (K : PUnit → sProp 𝕄),
        iprop(owns (c : Thread nD τ) arg3 fullShare x ∗ owns (c : Thread nD τ) arg4 fullShare w ∗ owns (c : Thread nD τ) arg5 fullShare b
            ∗ owns (c : Thread nD τ) arg6 fullShare o ∗ (∃ d, owns (c : Thread nD τ) arg7 fullShare d)
            ∗ (iprop(owns (c : Thread nD τ) arg3 fullShare x ∗ owns (c : Thread nD τ) arg4 fullShare w ∗ owns (c : Thread nD τ) arg5 fullShare b
                ∗ owns (c : Thread nD τ) arg6 fullShare o
                ∗ (∃ f, arg7.view.loc (c : Thread nD τ) ↦[arg7.view.set]{fullShare} arg7.view.writes (Elt F) f LS)) -∗ K ⟨⟩))
          ⊢ wp frame (wpE (defs₀ (F := F)) Variants.none c none) E (cc1__matmul_kernel i arg3 harg3 arg4 harg4 arg5 harg5 arg6 harg6 arg7 harg7) K } := by
  refine ⟨?_, fun o E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.Hand

end
-- ==== Proof.Bits.MatmulClose.lean ====
/-
  The matmul body at a CLOSING point (`k = 1`, the last half of the contraction), run once on arbitrary whole buffers.

  The accumulator is not zeroed: it holds what the opening point before left, `a`.  The product of the two input
  blocks is added to it, and then the accumulator plus the bias row is stored over the whole output block.  The run
  records what the output's buffer and the accumulator's buffer end with as the lists of the body's stores into them
  (last store first).
-/
import proofs.«144949_j90048284328682_2_alg».proof.Proof.Gen.Kernel.Launch
import proofs.«144949_j90048284328682_2_alg».proof.Proof.Gen.Kernel.Skeleton
import proofs.«144949_j90048284328682_2_alg».proof.Proof.Gen.Kernel.Points
import proofs.«144949_j90048284328682_2_alg».proof.Proof.Bits.MatmulBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- rectangles of these extents are compared coordinate by coordinate along the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores a closing point makes into the output block and into the accumulator (last first), WITH the proof that on
    whole buffers — the three inputs at contents `x`, `w`, `b`, the output at anything, the accumulator at `a` — the body
    runs to the end holding the inputs as they were and the output and the accumulator with those stores written. -/
noncomputable def mmCloseRun (c : Dev nD) (i : grid1.Coords)
    (arg3 : Memref sig .tc .vmem S1024x2048 .bf16) (harg3 : arg3.IsWhole) (arg4 : Memref sig .tc .vmem S1024x2048 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hc0 : ¬isOpening i) (hc1 : isClosing i)
    (x : Vec F S1024x2048 .bf16) (w : Vec F S1024x2048 .bf16) (b : Vec F S1x1024 .f32) (a : Vec F S1024x1024 .f32) :
    Σ' (LO : List (View.Piece (Elt F) S1024x1024 .f32)), { LS : List (View.Piece (Elt F) S1024x1024 .f32) //
      ∀ (E : Set ℕ) (K : PUnit → sProp 𝕄),
        iprop(owns (c : Thread nD τ) arg3 fullShare x ∗ owns (c : Thread nD τ) arg4 fullShare w ∗ owns (c : Thread nD τ) arg5 fullShare b
            ∗ (∃ d, owns (c : Thread nD τ) arg6 fullShare d) ∗ owns (c : Thread nD τ) arg7 fullShare a
            ∗ (iprop(owns (c : Thread nD τ) arg3 fullShare x ∗ owns (c : Thread nD τ) arg4 fullShare w ∗ owns (c : Thread nD τ) arg5 fullShare b
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LS)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.Kernel.Hand

end
-- ==== Proof.Bits.MatmulFrame.lean ====
/-
  The matmul region as the pipeline sees it, at any float instance and for any contents `V` of the core's buffers at
  the region's entry: what the accumulator and the output buffer hold after every grid point, the region invariant,
  the proof data, and the per-point obligation.

  After an opening point (even `t`) the accumulator holds the stores of that point's run, a function of the point's
  input blocks only (`accOpenAt`).  After a closing point (odd `t`) it holds the stores of the closing run started
  from what the opening point `t - 1` left (`accCloseAt`), and the output buffer holds that run's stores into it
  (`outCloseAt`).  The invariant between points `n` and `n + 1` says the accumulator's buffer holds `accAt n`; before
  the first point it is the region's plain invariant (the accumulator at anything), and after the last point the named
  contents are forgotten again.
-/
import proofs.«144949_j90048284328682_2_alg».proof.Proof.Gen.Kernel.Launch
import proofs.«144949_j90048284328682_2_alg».proof.Proof.Gen.Kernel.Skeleton
import proofs.«144949_j90048284328682_2_alg».proof.Proof.Gen.Kernel.Points
import proofs.«144949_j90048284328682_2_alg».proof.Proof.Bits.MatmulOpen
import proofs.«144949_j90048284328682_2_alg».proof.Proof.Bits.MatmulClose
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- rectangles of these extents are compared coordinate by coordinate along the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## What one run leaves, as functions of what it was given -/

/-- The accumulator after an opening run on inputs `x`, `w`, `b`: its stores read back. -/
def accOpenOf (c : Dev nD) (t : Fin cfg1.N) (hc0 : isOpening (grid1.coords t)) (hc1 : ¬isClosing (grid1.coords t))
    (x : Vec F S1024x2048 .bf16) (w : Vec F S1024x2048 .bf16) (b : Vec F S1x1024 .f32) : Vec F S1024x1024 .f32 :=
  View.canon (mmOpenRun c (grid1.coords t) (mmM0 t) (mmH0 t) (mmM1 t) (mmH1 t) (mmM2 t) (mmH2 t) (mmM3 t) (mmH3 t) accM (Memref.isWhole_whole _) hc0 hc1 x w b).1

/-- Those stores cover the accumulator. -/
theorem accOpenCover (c : Dev nD) (t : Fin cfg1.N) (hc0 : isOpening (grid1.coords t)) (hc1 : ¬isClosing (grid1.coords t))
    (x : Vec F S1024x2048 .bf16) (w : Vec F S1024x2048 .bf16) (b : Vec F S1x1024 .f32) (y : S1024x1024.Idx) :
    ∃ pc ∈ (mmOpenRun c (grid1.coords t) (mmM0 t) (mmH0 t) (mmM1 t) (mmH1 t) (mmM2 t) (mmH2 t) (mmM3 t) (mmH3 t) accM (Memref.isWhole_whole _) hc0 hc1 x w b).1, y ∈ pc.1.set :=
  View.cover_of_tiledL _ S1024x1024.size (by sl_kernel_rfl) y

/-- The accumulator after a closing run on inputs `x`, `w`, `b` started from the accumulator `a`. -/
def accCloseOf (c : Dev nD) (t : Fin cfg1.N) (hc0 : ¬isOpening (grid1.coords t)) (hc1 : isClosing (grid1.coords t))
    (x : Vec F S1024x2048 .bf16) (w : Vec F S1024x2048 .bf16) (b : Vec F S1x1024 .f32) (a : Vec F S1024x1024 .f32) : Vec F S1024x1024 .f32 :=
  View.canon (mmCloseRun c (grid1.coords t) (mmM0 t) (mmH0 t) (mmM1 t) (mmH1 t) (mmM2 t) (mmH2 t) (mmM3 t) (mmH3 t) accM (Memref.isWhole_whole _) hc0 hc1 x w b a).2.1

theorem accCloseCover (c : Dev nD) (t : Fin cfg1.N) (hc0 : ¬isOpening (grid1.coords t)) (hc1 : isClosing (grid1.coords t))
    (x : Vec F S1024x2048 .bf16) (w : Vec F S1024x2048 .bf16) (b : Vec F S1x1024 .f32) (a : Vec F S1024x1024 .f32) (y : S1024x1024.Idx) :
    ∃ pc ∈ (mmCloseRun c (grid1.coords t) (mmM0 t) (mmH0 t) (mmM1 t) (mmH1 t) (mmM2 t) (mmH2 t) (mmM3 t) (mmH3 t) accM (Memref.isWhole_whole _) hc0 hc1 x w b a).2.1, y ∈ pc.1.set :=
  View.cover_of_tiledL _ S1024x1024.size (by sl_kernel_rfl) y

/-- The output block after that closing run. -/
def outCloseOf (c : Dev nD) (t : Fin cfg1.N) (hc0 : ¬isOpening (grid1.coords t)) (hc1 : isClosing (grid1.coords t))
    (x : Vec F S1024x2048 .bf16) (w : Vec F S1024x2048 .bf16) (b : Vec F S1x1024 .f32) (a : Vec F S1024x1024 .f32) : Vec F S1024x1024 .f32 :=
  View.canon (mmCloseRun c (grid1.coords t) (mmM0 t) (mmH0 t) (mmM1 t) (mmH1 t) (mmM2 t) (mmH2 t) (mmM3 t) (mmH3 t) accM (Memref.isWhole_whole _) hc0 hc1 x w b a).1

theorem outCloseCover (c : Dev nD) (t : Fin cfg1.N) (hc0 : ¬isOpening (grid1.coords t)) (hc1 : isClosing (grid1.coords t))
    (x : Vec F S1024x2048 .bf16) (w : Vec F S1024x2048 .bf16) (b : Vec F S1x1024 .f32) (a : Vec F S1024x1024 .f32) (y : S1024x1024.Idx) :
    ∃ pc ∈ (mmCloseRun c (grid1.coords t) (mmM0 t) (mmH0 t) (mmM1 t) (mmH1 t) (mmM2 t) (mmH2 t) (mmM3 t) (mmH3 t) accM (Memref.isWhole_whole _) hc0 hc1 x w b a).1, y ∈ pc.1.set :=
  View.cover_of_tiledL _ S1024x1024.size (by sl_kernel_rfl) y

/-! ## Point by point -/

theorem opening_of_even (t : Fin cfg1.N) (h : t.val % 2 = 0) : isOpening (grid1.coords t) := (isOpening_iff t).mpr h
theorem notClosing_of_even (t : Fin cfg1.N) (h : t.val % 2 = 0) : ¬isClosing (grid1.coords t) :=
  fun hc => by have := (isClosing_iff t).mp hc; omega
theorem closing_of_odd (t : Fin cfg1.N) (h : t.val % 2 = 1) : isClosing (grid1.coords t) := (isClosing_iff t).mpr h
theorem notOpening_of_odd (t : Fin cfg1.N) (h : t.val % 2 = 1) : ¬isOpening (grid1.coords t) :=
  fun hc => by have := (isOpening_iff t).mp hc; omega

/-- The point before `t` (point 0 stays). -/
def prevPt (t : Fin cfg1.N) : Fin cfg1.N := ⟨t.val - 1, Nat.lt_of_le_of_lt (Nat.sub_le _ _) t.isLt⟩

theorem prev_even (t : Fin cfg1.N) (h : t.val % 2 = 1) : (prevPt t).val % 2 = 0 := by
  show (t.val - 1) % 2 = 0; omega

/-- The accumulator after the opening point `t`. -/
def accOpenAt (c : Dev nD) (t : Fin cfg1.N) (h : t.val % 2 = 0) : Vec F S1024x1024 .f32 :=
  accOpenOf c t (opening_of_even t h) (notClosing_of_even t h) (mmBlk V c 0 t) (mmBlk V c 1 t) (mmBlk V c 2 t)

/-- The accumulator after the closing point `t`: the closing run started from what the opening point before left. -/
def accCloseAt (c : Dev nD) (t : Fin cfg1.N) (h : t.val % 2 = 1) : Vec F S1024x1024 .f32 :=
  accCloseOf c t (notOpening_of_odd t h) (closing_of_odd t h) (mmBlk V c 0 t) (mmBlk V c 1 t) (mmBlk V c 2 t)
    (accOpenAt V c (prevPt t) (prev_even t h))

/-- The output block after the closing point `t`. -/
def outCloseAt (c : Dev nD) (t : Fin cfg1.N) (h : t.val % 2 = 1) : Vec F S1024x1024 .f32 :=
  outCloseOf c t (notOpening_of_odd t h) (closing_of_odd t h) (mmBlk V c 0 t) (mmBlk V c 1 t) (mmBlk V c 2 t)
    (accOpenAt V c (prevPt t) (prev_even t h))

/-- The accumulator after point `t`. -/
def accAt (c : Dev nD) (t : Fin cfg1.N) : Vec F S1024x1024 .f32 :=
  if h : t.val % 2 = 0 then accOpenAt V c t h else accCloseAt V c t (by omega)

/-- The output buffer after point `t`: at a closing point what the run stored; at an opening point nothing is stored
    and nothing is written back, and the value named here is never consulted. -/
def outAt (c : Dev nD) (t : Fin cfg1.N) : Vec F S1024x1024 .f32 :=
  if h : t.val % 2 = 1 then outCloseAt V c t h else View.canon []

theorem accAt_even (c : Dev nD) (t : Fin cfg1.N) (h : t.val % 2 = 0) : accAt V c t = accOpenAt V c t h := dif_pos h
theorem accAt_odd (c : Dev nD) (t : Fin cfg1.N) (h : t.val % 2 = 1) : accAt V c t = accCloseAt V c t h :=
  dif_neg (by omega)
theorem outAt_odd (c : Dev nD) (t : Fin cfg1.N) (h : t.val % 2 = 1) : outAt V c t = outCloseAt V c t h := dif_pos h

/-! ## The invariant between points -/

/-- Before position `n`: at the start the region's plain invariant; afterwards the accumulator's buffer at what point
    `n - 1` left, beside the rest. -/
def mmInv (c : Dev nD) : (n : ℕ) → n ≤ cfg1.N → sProp 𝕄
  | 0, _ => Pipeline.ΦA spec1 c
  | n + 1, hn => iprop(owns (c : Thread nD τ) accM fullShare (accAt V c ⟨n, hn⟩) ∗ mmRest (F := F) c)

theorem mmInv_zero (c : Dev nD) (n : ℕ) (h : n ≤ cfg1.N) (hz : n = 0) : mmInv V c n h = Pipeline.ΦA spec1 c := by
  subst hz; rfl

theorem mmInv_succ (c : Dev nD) (n : ℕ) (hn : n < cfg1.N) :
    mmInv V c (n + 1) hn = iprop(owns (c : Thread nD τ) accM fullShare (accAt V c ⟨n, hn⟩) ∗ mmRest (F := F) c) := rfl

theorem mmInv_pos (c : Dev nD) (n : ℕ) (h : n ≤ cfg1.N) (hz : n ≠ 0) :
    mmInv V c n h = iprop(owns (c : Thread nD τ) accM fullShare (accAt V c ⟨n - 1, by omega⟩) ∗ mmRest (F := F) c) := by
  cases n with
  | zero => exact absurd rfl hz
  | succ n => rfl

/-! ## The proof data -/

/-- What the pipeline is told about the region on core `c`: the arrays as the region finds them; after the body at
    point `t` each input buffer still at its block and the output buffer at `outAt`; the invariant `mmInv`; nothing
    owed. -/
def mmDat (c : Dev nD) : Dat τ (Elt F) Unit ℕ (UR sig nD τ) ℕ cfg1 c where
  A w := V c (Pipeline.arrRef spec1 w)
  after w t := match w with
    | ⟨0, _⟩ => mmBlk V c 0 t
    | ⟨1, _⟩ => mmBlk V c 1 t
    | ⟨2, _⟩ => mmBlk V c 2 t
    | ⟨3, _⟩ => outAt V c t
  Φ t := mmInv V c t.val (Nat.le_of_lt_succ t.isLt)
  q _ := fullShare
  owed _ := 0

theorem mmA_eq (c : Dev nD) (w : Fin cfg1.W) : (mmDat V c).A w = V c (Pipeline.arrRef spec1 w) := by
  dsimp only [mmDat]

theorem mmInv_castSucc (c : Dev nD) (t : Fin cfg1.N) :
    (mmDat V c).Φ t.castSucc = mmInv V c t.val (Nat.le_of_lt t.isLt) := by
  dsimp only [mmDat]; simp only [Fin.coe_castSucc]

theorem mmAfter0 (c : Dev nD) (t : Fin cfg1.N) : (mmDat V c).after 0 t = mmBlk V c 0 t := by dsimp only [mmDat]
theorem mmAfter1 (c : Dev nD) (t : Fin cfg1.N) : (mmDat V c).after 1 t = mmBlk V c 1 t := by dsimp only [mmDat]
theorem mmAfter2 (c : Dev nD) (t : Fin cfg1.N) : (mmDat V c).after 2 t = mmBlk V c 2 t := by dsimp only [mmDat]
theorem mmAfter3 (c : Dev nD) (t : Fin cfg1.N) : (mmDat V c).after 3 t = outAt V c t := by dsimp only [mmDat]

theorem mmBefore0 (c : Dev nD) (t : Fin cfg1.N) (d) : (mmDat V c).before 0 t d = mmBlk V c 0 t :=
  mmBefore0_of V (mmDat V c) (mmA_eq V c 0) (mmAfter0 V c) t d
theorem mmBefore1 (c : Dev nD) (t : Fin cfg1.N) (d) : (mmDat V c).before 1 t d = mmBlk V c 1 t :=
  mmBefore1_of V (mmDat V c) (mmA_eq V c 1) (mmAfter1 V c) t d
theorem mmBefore2 (c : Dev nD) (t : Fin cfg1.N) (d) : (mmDat V c).before 2 t d = mmBlk V c 2 t :=
  mmBefore2_of V (mmDat V c) (mmA_eq V c 2) (mmAfter2 V c) t d

/-! ## The obligation at a point -/

/-- What the body is called with at point `t`. -/
def mmPre (c : Dev nD) (t : Fin cfg1.N) : sProp 𝕄 :=
  iprop((mmDat V c).Φ t.castSucc ∗ (mmDat V c).owesAt () t.castSucc
    ∗ (∃ d, owns (c : Thread nD τ) (mmM0 t) fullShare ((mmDat V c).before 0 t d))
    ∗ (∃ d, owns (c : Thread nD τ) (mmM1 t) fullShare ((mmDat V c).before 1 t d))
    ∗ (∃ d, owns (c : Thread nD τ) (mmM2 t) fullShare ((mmDat V c).before 2 t d))
    ∗ (∃ d, owns (c : Thread nD τ) (mmM3 t) fullShare ((mmDat V c).before 3 t d)))

/-- What it hands back. -/
def mmPost (c : Dev nD) (t : Fin cfg1.N) : sProp 𝕄 :=
  iprop((mmDat V c).Φ t.succ ∗ (mmDat V c).owesAt () t.succ
    ∗ (mmDat V c).leavesExact 0 t
    ∗ (mmDat V c).leavesExact 1 t
    ∗ (mmDat V c).leavesExact 2 t
    ∗ (mmDat V c).leavesExact 3 t)

theorem mmLeaves0 (c : Dev nD) (t : Fin cfg1.N) :
    (mmDat V c).leavesExact 0 t = owns (c : Thread nD τ) (mmM0 t) fullShare (mmBlk V c 0 t) := by
  unfold Dat.leavesExact; rw [mmLive0 t, mmAfter0]
theorem mmLeaves1 (c : Dev nD) (t : Fin cfg1.N) :
    (mmDat V c).leavesExact 1 t = owns (c : Thread nD τ) (mmM1 t) fullShare (mmBlk V c 1 t) := by
  unfold Dat.leavesExact; rw [mmLive1 t, mmAfter1]
theorem mmLeaves2 (c : Dev nD) (t : Fin cfg1.N) :
    (mmDat V c).leavesExact 2 t = owns (c : Thread nD τ) (mmM2 t) fullShare (mmBlk V c 2 t) := by
  unfold Dat.leavesExact; rw [mmLive2 t, mmAfter2]

set_option maxHeartbeats 4000000 in
/-- The body at any point.  The input buffers hold their blocks.  At an even point the opening run applies: the
    accumulator is handed over at anything (from the plain invariant at the first point, by forgetting its contents
    later) and comes back at `accAt t`; the output buffer passes through untouched.  At an odd point the closing run
    applies: the accumulator is handed over at what the opening point before left and comes back at `accAt t`, the output
    buffer at `outAt t`.  The rest of the invariant and the core's dues pass through unread. -/
theorem mmBody (c : Dev nD) (t : Fin cfg1.N) :
    mmPre V c t ⊢ wp frame (wpE (defs₀ (F := F)) Variants.none c none) Set.univ (bodyAt1 t) (fun _ => mmPost V c t) := by
  unfold mmPre mmPost bodyAt1
  simp only [mmBefore0, mmBefore1, mmBefore2]
  rw [show (mmDat V c).owesAt () t.succ = (mmDat V c).owesAt () t.castSucc from rfl]
  rw [show (mmDat V c).Φ t.succ = mmInv V c (t.val + 1) t.isLt from rfl, mmInv_succ]
  rw [mmLeaves0, mmLeaves1, mmLeaves2]
  have hN : t.val < 64 := lt_of_lt_of_eq t.isLt (show cfg1.N = 64 from N_1)
  by_cases h0 : t.val % 2 = 0
  · rw [Dat.leavesExact_idle (mmDat V c) 3 t (mmIdle3 t (opening_of_even t h0) (notClosing_of_even t h0)) (mmNoFlush3 t (opening_of_even t h0) (notClosing_of_even t h0))]
    rw [show (⟨t.val, t.isLt⟩ : Fin cfg1.N) = t from rfl, accAt_even V c t h0]
    unfold accOpenAt accOpenOf
    have hacc : (mmDat V c).Φ t.castSucc ⊢ iprop((∃ d, owns (c : Thread nD τ) accM fullShare d) ∗ mmRest (F := F) c) := by
      rw [mmInv_castSucc V c t]
      by_cases hz : t.val = 0
      · rw [mmInv_zero V c _ _ hz]; exact mmPlain_split c
      · rw [mmInv_pos V c _ _ hz]
        iintro ⟨HS, Hr⟩
        isplitl [HS]; · iexists _; iexact HS
        iexact Hr
    iintro ⟨HΦ, Ho, ⟨%d0, H0⟩, ⟨%d1, H1⟩, ⟨%d2, H2⟩, ⟨%d3, H3⟩⟩
    ihave HΦ' := hacc $$ HΦ
    icases HΦ' with ⟨HS, Hr⟩
    iapply ((mmOpenRun c (grid1.coords t) _ _ _ _ _ _ _ _ _ _ (opening_of_even t h0) (notClosing_of_even t h0) (mmBlk V c 0 t) (mmBlk V c 1 t) (mmBlk V c 2 t)).2 _ Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [HS Hr]
    · isplitl [HS]
      · unfold owns; iexists _; isplitr
        swap; · iexact HS
        ipureintro; exact View.read_writes_eq_canon _ _ _ (accOpenCover c t _ _ _ _ _)
      iexact Hr
    isplitl [Ho]; · iexact Ho
    isplitl [H0]; · iexact H0
    isplitl [H1]; · iexact H1
    isplitl [H2]; · iexact H2
    iexists _; iexact H3
  · have h1 : t.val % 2 = 1 := by omega
    have hz : t.val ≠ 0 := by omega
    rw [show (mmDat V c).leavesExact 3 t = owns (c : Thread nD τ) (mmM3 t) fullShare ((mmDat V c).after 3 t) from by
      unfold Dat.leavesExact; rw [mmLive3 t (notOpening_of_odd t h1) (closing_of_odd t h1)], mmAfter3, outAt_odd V c t h1]
    rw [show (⟨t.val, t.isLt⟩ : Fin cfg1.N) = t from rfl, accAt_odd V c t h1]
    unfold accCloseAt outCloseAt accCloseOf outCloseOf
    rw [mmInv_castSucc V c t, mmInv_pos V c _ _ hz]
    rw [show (⟨t.val - 1, by omega⟩ : Fin cfg1.N) = prevPt t from rfl, accAt_even V c (prevPt t) (prev_even t h1)]
    iintro ⟨⟨HS, Hr⟩, Ho, ⟨%d0, H0⟩, ⟨%d1, H1⟩, ⟨%d2, H2⟩, ⟨%d3, H3⟩⟩
    iapply ((mmCloseRun c (grid1.coords t) _ _ _ _ _ _ _ _ _ _ (notOpening_of_odd t h1) (closing_of_odd t h1) (mmBlk V c 0 t) (mmBlk V c 1 t) (mmBlk V c 2 t) _).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%eo, H3⟩, ⟨%es, HS⟩⟩
    isplitl [HS Hr]
    · isplitl [HS]
      · unfold owns; iexists _; isplitr
        swap; · iexact HS
        ipureintro; exact View.read_writes_eq_canon _ _ _ (accCloseCover c t _ _ _ _ _ _)
      iexact Hr
    isplitl [Ho]; · iexact Ho
    isplitl [H0]; · iexact H0
    isplitl [H1]; · iexact H1
    isplitl [H2]; · iexact H2
    unfold owns; iexists _; isplitr
    swap; · iexact H3
    ipureintro; exact View.read_writes_eq_canon _ _ _ (outCloseCover c t _ _ _ _ _ _)

/-- The pipeline's obligation for the region, at every point. -/
theorem mmObligation (c : Dev nD) : BodyObligation (mmDat (F := F) V c) (defs₀ (F := F)) Variants.none () Set.univ := fun t => by
  rw [bigSep_W1, bigSep_W1]
  exact mmBody V c t

/-- What the launch hands the region is the invariant before the first point. -/
theorem mmEnter (c : Dev nD) : Pipeline.ΦA spec1 c ⊢ (mmDat V c).Φ 0 := by
  rw [show (mmDat V c).Φ 0 = mmInv V c 0 (Nat.zero_le _) from rfl, mmInv_zero V c 0 _ rfl]
  try exact Idealize.SL.BI.Entails.refl _

/-- After the last point the invariant gives the plain one back: the accumulator's contents are forgotten. -/
theorem mmLeave (c : Dev nD) : (mmDat V c).Φ (Fin.last cfg1.N) ⊢ Pipeline.ΦA spec1 c := by
  have hne : (Fin.last cfg1.N).val ≠ 0 := by rw [Fin.val_last]; have : cfg1.N = 64 := N_1; omega
  rw [show (mmDat V c).Φ (Fin.last cfg1.N) = mmInv V c (Fin.last cfg1.N).val (Nat.le_of_lt_succ (Fin.last cfg1.N).isLt) from rfl,
    mmInv_pos V c _ _ hne]
  have hforget : iprop(owns (c : Thread nD τ) accM fullShare (accAt V c ⟨(Fin.last cfg1.N).val - 1, by omega⟩) ∗ mmRest (F := F) c)
      ⊢ iprop((∃ d, owns (c : Thread nD τ) accM fullShare d) ∗ mmRest (F := F) c) := by
    iintro ⟨HS, Hr⟩
    isplitl [HS]; · iexists _; iexact HS
    iexact Hr
  exact hforget.trans (mmPlain_join c)

end Cert.Kernel.Hand

end
-- ==== Proof.Bits.Run.lean ====
/-
  The whole program at any float instance: the weight-blend region, the two host lines (the bias row reshaped to
  1×4096, the batch rounded to bf16), the matmul region — composed into one statement about every weakly fair
  execution from any launch memory.

  The contents of the core's unscoped buffers are followed through the program: `S0` at launch; `S1` after the blend
  region, which changes only the blended-weight array (to what its sixteen write-backs leave); `S2` after the two host
  lines; `S3` after the matmul region, which changes only the result array (to what its thirty-two write-backs
  leave).  Each region enters from "every unscoped buffer at the boundary's contents, the random-bit register at some
  state, nothing owed" and leaves in the same form at the next boundary.  The run's conclusion (`run_all`): the
  program terminates without a fault and every unscoped buffer ends at `S3`.  Two readings of it: no argument array is
  written by any step, so each ends as launched (`frame`); and the result array ends at the matmul region's final
  array (`S3_result`).
-/
import proofs.«144949_j90048284328682_2_alg».proof.Proof.Gen.Kernel.Launch
import proofs.«144949_j90048284328682_2_alg».proof.Proof.Gen.Kernel.Skeleton
import proofs.«144949_j90048284328682_2_alg».proof.Proof.Gen.Kernel.Points
import proofs.«144949_j90048284328682_2_alg».proof.Proof.Bits.Blend
import proofs.«144949_j90048284328682_2_alg».proof.Proof.Bits.MatmulFrame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- rectangles of these extents are compared coordinate by coordinate along the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev S0 : Dev nD → Valuation τ sig (Elt F) := fun c b => (s₀ m ρ).mem ((c : Dev nD), b)
/-- The same read at the TensorCore's references: what the blend region is entered from. -/
abbrev E0 : (c : Dev nD) → (b : Ref sig .tc) → Buf (Elt F) ((c : Thread nD τ).loc b) := fun c b => S0 m ρ c b
/-- After the blend region: its arrays at what the pipeline leaves, every other buffer as before. -/
def S1 (c : Dev nD) : Valuation τ sig (Elt F) :=
  Pipeline.withArrays spec0 c (S0 m ρ c) fun w => (blendDat (E0 m ρ) c).arrAt w cfg0.N
theorem S1_arr (c : Dev nD) (w : Fin cfg0.W) :
    S1 m ρ c (Proc.devRef .tc (Pipeline.arrRef spec0 w)) = (blendDat (E0 m ρ) c).arrAt w cfg0.N := by
  unfold S1; exact Pipeline.withArrays_arr spec0 launch0.win.arr_inj c _ _ w
theorem S1_of_ne (c : Dev nD) (b : Ref sig .tc) (hb : ∀ w, Pipeline.arrRef spec0 w ≠ b) :
    S1 m ρ c (Proc.devRef .tc b) = S0 m ρ c (Proc.devRef .tc b) := by
  unfold S1; exact Pipeline.withArrays_of_ne spec0 c _ _ b hb
abbrev E1 : (c : Dev nD) → (b : Ref sig .tc) → Buf (Elt F) ((c : Thread nD τ).loc b) := fun c b => S1 m ρ c b
theorem blendFinal (c : Dev nD) (w : Fin cfg0.W) : (blendDat (E0 m ρ) c).arrAt w cfg0.N = E1 m ρ c (Pipeline.arrRef spec0 w) :=
  (S1_arr m ρ c w).symm
theorem blendKeeps (c : Dev nD) : ∀ b, b ∉ Finset.univ.image (Pipeline.arrRef spec0) → E1 m ρ c b = E0 m ρ c b :=
  fun b hb => S1_of_ne m ρ c b fun w e => hb (Finset.mem_image.mpr ⟨w, Finset.mem_univ _, e⟩)

/-- After the two host lines: what the matmul region is entered from. -/
abbrev S2 : Dev nD → Valuation τ sig (Elt F) := fun c => StableHlo.after hostOps1 (S1 m ρ c)
abbrev E2 : (c : Dev nD) → (b : Ref sig .tc) → Buf (Elt F) ((c : Thread nD τ).loc b) := fun c b => S2 m ρ c b
/-- After the matmul region. -/
def S3 (c : Dev nD) : Valuation τ sig (Elt F) :=
  Pipeline.withArrays spec1 c (S2 m ρ c) fun w => (mmDat (E2 m ρ) c).arrAt w cfg1.N
theorem S3_arr (c : Dev nD) (w : Fin cfg1.W) :
    S3 m ρ c (Proc.devRef .tc (Pipeline.arrRef spec1 w)) = (mmDat (E2 m ρ) c).arrAt w cfg1.N := by
  unfold S3; exact Pipeline.withArrays_arr spec1 launch1.win.arr_inj c _ _ w
theorem S3_of_ne (c : Dev nD) (b : Ref sig .tc) (hb : ∀ w, Pipeline.arrRef spec1 w ≠ b) :
    S3 m ρ c (Proc.devRef .tc b) = S2 m ρ c (Proc.devRef .tc b) := by
  unfold S3; exact Pipeline.withArrays_of_ne spec1 c _ _ b hb
abbrev E3 : (c : Dev nD) → (b : Ref sig .tc) → Buf (Elt F) ((c : Thread nD τ).loc b) := fun c b => S3 m ρ c b
theorem mmFinal (c : Dev nD) (w : Fin cfg1.W) : (mmDat (E2 m ρ) c).arrAt w cfg1.N = E3 m ρ c (Pipeline.arrRef spec1 w) :=
  (S3_arr m ρ c w).symm
theorem mmKeeps (c : Dev nD) : ∀ b, b ∉ Finset.univ.image (Pipeline.arrRef spec1) → E3 m ρ c b = E2 m ρ c b :=
  fun b hb => S3_of_ne m ρ c b fun w e => hb (Finset.mem_image.mpr ⟨w, Finset.mem_univ _, e⟩)

/-- The result array ends at the matmul region's final array for its output window. -/
theorem S3_result (c : Dev nD) : S3 m ρ c (Proc.devRef .tc main_v3) = (mmDat (E2 m ρ) c).arrAt 3 cfg1.N :=
  S3_arr m ρ c 3

/-! ### No step writes an argument -/

/-- An argument no window of the matmul region stages and no host line writes is, after everything, what the blend
    region left of it. -/
theorem S3_to_S1 (c : Dev nD) (b : Ref sig .tc) (h1 : ∀ w, Pipeline.arrRef spec1 w ≠ b)
    (h2 : b ≠ main_v1) (h3 : b ≠ main_v2) : S3 m ρ c (Proc.devRef .tc b) = S1 m ρ c (Proc.devRef .tc b) :=
  (S3_of_ne m ρ c b h1).trans <| StableHlo.after_of_forall_not_mem (b := Proc.devRef .tc b) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    exact ⟨StableHlo.devRef_ne_of_ne h2, StableHlo.devRef_ne_of_ne h3⟩))

theorem S3_main_arg0 (c : Dev nD) : S3 m ρ c (Proc.devRef .tc main_arg0) = m ((c : Thread nD τ).loc main_arg0) :=
  (S3_to_S1 m ρ c main_arg0 (by decide) (by decide) (by decide)).trans ((S1_of_ne m ρ c main_arg0 (by decide)).trans rfl)
theorem S3_main_arg3 (c : Dev nD) : S3 m ρ c (Proc.devRef .tc main_arg3) = m ((c : Thread nD τ).loc main_arg3) :=
  (S3_to_S1 m ρ c main_arg3 (by decide) (by decide) (by decide)).trans ((S1_of_ne m ρ c main_arg3 (by decide)).trans rfl)
/-- The two weight arrays are staged by the blend region as inputs: an input's array is never written back. -/
theorem S3_main_arg1 (c : Dev nD) : S3 m ρ c (Proc.devRef .tc main_arg1) = m ((c : Thread nD τ).loc main_arg1) :=
  (S3_to_S1 m ρ c main_arg1 (by decide) (by decide) (by decide)).trans
    ((S1_arr m ρ c 0).trans (((blendDat (E0 m ρ) c).arrAt_in 0 rfl _).trans ((blendA_eq (E0 m ρ) c 0).trans rfl)))
theorem S3_main_arg2 (c : Dev nD) : S3 m ρ c (Proc.devRef .tc main_arg2) = m ((c : Thread nD τ).loc main_arg2) :=
  (S3_to_S1 m ρ c main_arg2 (by decide) (by decide) (by decide)).trans
    ((S1_arr m ρ c 1).trans (((blendDat (E0 m ρ) c).arrAt_in 1 rfl _).trans ((blendA_eq (E0 m ρ) c 1).trans rfl)))

/-! ## The proof data of both regions and the state between segments -/

/-- No region has a prefetched table. -/
abbrev adm : (p : Fin 2) → (pcfgs (F := F) p).Adm := fun p => (cfgs p).toPCfg_adm
/-- Both regions' proof data, each at its region's entry contents. -/
def pdats : (p : Fin 2) → (c : Dev nD) → Dat τ (Elt F) Unit ℕ (UR sig nD τ) ℕ (Pipeline.pin (pcfgs (F := F)) adm p) c
  | ⟨0, _⟩ => fun c => blendDat (E0 m ρ) c
  | ⟨1, _⟩ => fun c => mmDat (E2 m ρ) c
abbrev 𝒱₀ : Variants := Variants.none
/-- No core owes another anything. -/
abbrev Lv : GSem nD τ sig → Finset Unit := fun _ => ∅
abbrev lv : GSem nD τ sig → Unit → ℕ := fun _ _ => 0
/-- What rides beside the buffers through every segment: the random-bit register at some state, nothing owed. -/
abbrev Ride (c : Dev nD) : sProp 𝕄 := iprop((∃ r, prngReg c r) ∗ ∃ W, owes (c : Thread nD τ) (0 : CellTallies nD τ sig Unit) W)

theorem hostOps1_fresh : (hostOps1 : List (HloOp τ sig (Elt F))).Forall fun op => op.fresh = ∅ := by
  simp only [List.Forall]; repeat' constructor

/-- The two host lines as a segment from the contents `S1`. -/
abbrev hostSeg : Pipeline.HostSeg (Name := ℕ) (U := UR sig nD τ) (pcfgs (F := F)) defs₀ 𝒱₀ Lv lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (S1 m ρ) Ride

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last state without the dues: every unscoped buffer at `S3`, the register at some state. -/
abbrev Tend (c : Dev nD) : sProp 𝕄 := iprop(StableHlo.held (c : Thread nD τ) (Pipeline.ucRefs τ sig) (S3 m ρ c) ∗ ∃ r, prngReg c r)

/-! ## The two regions as segments -/

set_option backward.isDefEq.respectTransparency.types false in
/-- The blend region: entered from every unscoped buffer at `S0`, left at `S1`.  Its three arrays are split out of
    the unscoped buffers and put back at the exit contents; the register goes into the invariant and comes out; nothing
    is owed; the kernel has no semaphore of its own. -/
def blendSeg : Pipeline.RegionSeg (pcfgs (F := F)) adm (pdats m ρ) () defs₀ 𝒱₀ Lv lv 0 where
  win := launch0.win.to₀
  block_pos := launch0.block_pos
  stage_whole := launch0.stage_whole
  K := PEmpty
  osem k := k.elim
  ho := Pipeline.OwnSemFacts.none _
  hbody c := (blendObligation (E0 m ρ) c).loose
  hwaits := Pipeline.hwaits_of_owed_zero _ _ _ _ Lv lv 0 fun _ _ => rfl
  pre c := iprop(StableHlo.held (c : Thread nD τ) (Pipeline.ucRefs τ sig) (S0 m ρ c) ∗ Ride c)
  post c := iprop(StableHlo.held (c : Thread nD τ) (Pipeline.ucRefs τ sig) (S1 m ρ c) ∗ Ride c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (E1 m ρ c) ((pdats m ρ 0 c).arrAt · cfg0.N) (blendFinal m ρ c) (blendKeeps m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matmul region: entered from every unscoped buffer at `S2`, left at `S3`.  As the blend region, except that
    the invariant between points names the accumulator's contents: it starts as the plain invariant (`mmEnter`) and
    ends as the plain one again (`mmLeave`). -/
def mmSeg : Pipeline.RegionSeg (pcfgs (F := F)) adm (pdats m ρ) () defs₀ 𝒱₀ Lv lv 1 where
  win := launch1.win.to₀
  block_pos := launch1.block_pos
  stage_whole := launch1.stage_whole
  K := PEmpty
  osem k := k.elim
  ho := Pipeline.OwnSemFacts.none _
  hbody c := (mmObligation (E2 m ρ) c).loose
  hwaits := Pipeline.hwaits_of_owed_zero _ _ _ _ Lv lv 1 fun _ _ => rfl
  pre c := iprop(StableHlo.held (c : Thread nD τ) (Pipeline.ucRefs τ sig) (S2 m ρ c) ∗ Ride c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (mmEnter (E2 m ρ) c)
    unfold Pipeline.ΦA
    iintro ⟨Hp, -, Hr⟩
    isplitl [Hr]; · iexact Hr
    iexact Hp
  hout c := by
    rw [Pipeline.ownSems0_none]
    refine BIBase.Entails.trans (mmLeave (E2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (mmFinal m ρ c) (mmKeeps m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ Lv lv) :=
  [ .region (blendSeg m ρ), .host (hostSeg m ρ), .region (mmSeg m ρ) ]

/-- The program is the run of its three segments. -/
theorem main_run (c : Dev nD) : main (F := F) c = Pipeline.Seg.run (segs m ρ) := (main_chain c).trans (by chain_rfl)

set_option backward.isDefEq.respectTransparency.types false in
/-- THE RUN.  From any launch memory with zero counters every weakly fair execution of the program terminates, nothing
    faulting, and in every final state every unscoped buffer of every core holds `S3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = S3 m ρ c b) :=
  Pipeline.θ_run_regions_kit (pcfgs (F := F)) adm (pdats m ρ) () cellOf_inj emb₁ defs₀ 𝒱₀ Lv lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (S0 m ρ c) ∗ Ride c)) (Tₙ := Tend m ρ)
    (hch := ⟨fun _ => .rfl, fun _ => .rfl, fun _ => .rfl, fun _ => .rfl⟩)
    (hinit := by
      refine Pipeline.initEach Lv lv fun c => ?_
      rw [show unscopedBufs c (fun b => m ((c : Thread nD τ).loc b)) = StableHlo.held (c : Thread nD τ) (Pipeline.ucRefs τ sig) (S0 m ρ c)
        from Pipeline.unscopedBufs_held c (S0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = S3 m ρ c b)
    (hfin := fun c s' => by
      iintro ⟨⟨Hh, -⟩, HSI⟩
      unfold StableHlo.held
      imodintro
      iapply (pointsTo_read_all (Pipeline.ucRefs τ sig) (fun b => (((c : Thread nD τ)).1, b)) (S3 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (S3_main_arg0 m ρ c),
     (h c _ (mem_uc main_arg1 (by decide))).trans (S3_main_arg1 m ρ c),
     (h c _ (mem_uc main_arg2 (by decide))).trans (S3_main_arg2 m ρ c),
     (h c _ (mem_uc main_arg3 (by decide))).trans (S3_main_arg3 m ρ c)⟩) (run_all m ρ)

end Cert.Kernel.Hand

end
-- ==== Proof.Ideal.Blend.lean ====
/-
  The weight-blend region (the first pallas_call) at any float instance, for any contents `V` of the core's buffers
  when the region is entered.

  The grid has 16 points; point `t` handles rows 256·t … 256·t+255 of the two 4096×4096 weight arrays.  The body
  loads the block of the integer base weights and the block of the tags, converts the first to floats, adds, rounds
  to bf16 and stores the result over the whole output block.  So after the body the output window's buffer holds
  `blendOut` of the two input blocks — one store covering the block — and the input buffers are untouched.  From this
  the per-point obligation of the pipeline follows with the region invariant left alone: the body names no scratch
  buffer, no semaphore and no random bits.
-/
import proofs.«144949_j90048284328682_2_alg».proof.Proof.Gen.KernelIdeal.Launch
import proofs.«144949_j90048284328682_2_alg».proof.Proof.Gen.KernelIdeal.Skeleton
import proofs.«144949_j90048284328682_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- rectangles of these extents are compared coordinate by coordinate along the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The blocks of the three windows -/

/-- The block of window `w` at grid point `t`: rows 256·t … 256·t+255 of the window's array as the region finds it. -/
def blendBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The buffer the body reads the base weights from holds their block at every point: it is fetched at every point,
    and the body leaves it as it found it. -/
theorem blendBefore0_of {c : Dev nD} (dat : Dat τ (Elt F) Unit ℕ (UR sig nD τ) ℕ cfg0 c) (hA : dat.A 0 = V c (Pipeline.arrRef spec0 0))
    (hafter : ∀ t, dat.after 0 t = blendBlk V c 0 t) (t : Fin cfg0.N) (d) : dat.before 0 t d = blendBlk V c 0 t :=
  (dat.before_in_eq_fetched 0 rfl (fun _ => rfl) (fun _ _ _ => rfl) (fun t => by rw [hafter]; unfold Dat.blockOf blendBlk; rw [hA]; try rfl) t d).trans
    (by unfold Dat.fetched Dat.blockOf blendBlk; rw [hA]; try rfl)

/-- The same for the tags. -/
theorem blendBefore1_of {c : Dev nD} (dat : Dat τ (Elt F) Unit ℕ (UR sig nD τ) ℕ cfg0 c) (hA : dat.A 1 = V c (Pipeline.arrRef spec0 1))
    (hafter : ∀ t, dat.after 1 t = blendBlk V c 1 t) (t : Fin cfg0.N) (d) : dat.before 1 t d = blendBlk V c 1 t :=
  (dat.before_in_eq_fetched 1 rfl (fun _ => rfl) (fun _ _ _ => rfl) (fun t => by rw [hafter]; unfold Dat.blockOf blendBlk; rw [hA]; try rfl) t d).trans
    (by unfold Dat.fetched Dat.blockOf blendBlk; rw [hA]; try rfl)

/-! ## What the body stores -/

/-- The one rectangle the body touches: the whole 256×4096 block. -/
abbrev blendRect : Rect S256x4096 := Rect.unit (s := S256x4096) ![0, 0] S256x4096.size inb_S256x4096_S256x4096_0_0

/-- The output block after the body, from the two input blocks: the blended weights stored over the whole block. -/
def blendOut (wb : Vec F S256x4096 .i32) (tag : Vec F S256x4096 .f32) : Vec F S256x4096 .bf16 :=
  View.canon [⟨blendRect, k0_pay1 (View.ld wb blendRect) (View.ld tag blendRect)⟩]

/-- That one store covers the block. -/
theorem blendCover (p : Vec F S256x4096 .bf16) (y : S256x4096.Idx) :
    ∃ pc ∈ ([⟨blendRect, p⟩] : List (View.Piece (Elt F) S256x4096 .bf16)), y ∈ pc.1.set :=
  View.cover_of_tiled [⟨blendRect, p⟩] S256x4096.size (by rfl) y

/-! ## The body's triple -/

set_option maxHeartbeats 1000000 in
/-- On whole buffers — the two inputs at contents `wb`, `tag`, the output at anything — the body runs to the end, leaves
    the inputs as they were and the output at `blendOut wb tag`. -/
theorem blendKernel (c : Dev nD) (E : Set ℕ) (i : grid0.Coords)
    (arg1 : Memref sig .tc .vmem S256x4096 .i32) (harg1 : arg1.IsWhole) (arg2 : Memref sig .tc .vmem S256x4096 .f32) (harg2 : arg2.IsWhole)
    (arg3 : Memref sig .tc .vmem S256x4096 .bf16) (harg3 : arg3.IsWhole)
    (wb : Vec F S256x4096 .i32) (tag : Vec F S256x4096 .f32) (K : PUnit → sProp 𝕄) :
    iprop(owns (c : Thread nD τ) arg1 fullShare wb ∗ owns (c : Thread nD τ) arg2 fullShare tag ∗ (∃ d, owns (c : Thread nD τ) arg3 fullShare d)
        ∗ (iprop(owns (c : Thread nD τ) arg1 fullShare wb ∗ owns (c : Thread nD τ) arg2 fullShare tag ∗ owns (c : Thread nD τ) arg3 fullShare (blendOut wb tag)) -∗ K ⟨⟩))
      ⊢ wp frame (wpE (defs₀ (F := F)) Variants.none c none) E (cc0__weight_kernel i arg1 harg1 arg2 harg2 arg3 harg3) K := by
  simp only [cc0__weight_kernel_eq_skeleton]; unfold cc0__weight_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (blendCover _)

/-! ## The pipeline's proof data -/

/-- What the pipeline is told about the region on core `c`: the arrays as the region finds them; after the body at
    point `t` each input buffer still at its block and the output buffer at `blendOut` of the two blocks; the region
    invariant the plain one (the other scoped buffers and the random-bit register, untouched); nothing owed. -/
def blendDat (c : Dev nD) : Dat τ (Elt F) Unit ℕ (UR sig nD τ) ℕ cfg0 c where
  A w := V c (Pipeline.arrRef spec0 w)
  after w t := match w with
    | ⟨0, _⟩ => blendBlk V c 0 t
    | ⟨1, _⟩ => blendBlk V c 1 t
    | ⟨2, _⟩ => blendOut (blendBlk V c 0 t) (blendBlk V c 1 t)
  Φ _ := Pipeline.ΦA spec0 c
  q _ := fullShare
  owed _ := 0

theorem blendA_eq (c : Dev nD) (w : Fin cfg0.W) : (blendDat V c).A w = V c (Pipeline.arrRef spec0 w) := by
  dsimp only [blendDat]

theorem blendAfter0 (c : Dev nD) (t : Fin cfg0.N) : (blendDat V c).after 0 t = blendBlk V c 0 t := by dsimp only [blendDat]
theorem blendAfter1 (c : Dev nD) (t : Fin cfg0.N) : (blendDat V c).after 1 t = blendBlk V c 1 t := by dsimp only [blendDat]
theorem blendAfter2 (c : Dev nD) (t : Fin cfg0.N) :
    (blendDat V c).after 2 t = blendOut (blendBlk V c 0 t) (blendBlk V c 1 t) := by dsimp only [blendDat]

theorem blendBefore0 (c : Dev nD) (t : Fin cfg0.N) (d) : (blendDat V c).before 0 t d = blendBlk V c 0 t :=
  blendBefore0_of V (blendDat V c) (blendA_eq V c 0) (blendAfter0 V c) t d
theorem blendBefore1 (c : Dev nD) (t : Fin cfg0.N) (d) : (blendDat V c).before 1 t d = blendBlk V c 1 t :=
  blendBefore1_of V (blendDat V c) (blendA_eq V c 1) (blendAfter1 V c) t d

/-! ## The obligation at a point -/

/-- What the body is called with at point `t`: the invariant, the core's dues, and the three current buffers. -/
def blendPre (c : Dev nD) (t : Fin cfg0.N) : sProp 𝕄 :=
  iprop((blendDat V c).Φ t.castSucc ∗ (blendDat V c).owesAt () t.castSucc
    ∗ (∃ d, owns (c : Thread nD τ) (st0_0 t) fullShare ((blendDat V c).before 0 t d))
    ∗ (∃ d, owns (c : Thread nD τ) (st0_1 t) fullShare ((blendDat V c).before 1 t d))
    ∗ (∃ d, owns (c : Thread nD τ) (st0_2 t) fullShare ((blendDat V c).before 2 t d)))

/-- What it hands back. -/
def blendPost (c : Dev nD) (t : Fin cfg0.N) : sProp 𝕄 :=
  iprop((blendDat V c).Φ t.succ ∗ (blendDat V c).owesAt () t.succ
    ∗ owns (c : Thread nD τ) (st0_0 t) fullShare ((blendDat V c).after 0 t)
    ∗ owns (c : Thread nD τ) (st0_1 t) fullShare ((blendDat V c).after 1 t)
    ∗ owns (c : Thread nD τ) (st0_2 t) fullShare ((blendDat V c).after 2 t))

/-- The body at any point: the input buffers hold their blocks, so `blendKernel` applies; the invariant and the dues
    pass through unread. -/
theorem blendBody (c : Dev nD) (t : Fin cfg0.N) :
    blendPre V c t ⊢ wp frame (wpE (defs₀ (F := F)) Variants.none c none) Set.univ (bodyAt0 t) (fun _ => blendPost V c t) := by
  unfold blendPre blendPost bodyAt0
  simp only [blendBefore0, blendBefore1]
  rw [show (blendDat V c).Φ t.succ = (blendDat V c).Φ t.castSucc from rfl,
    show (blendDat V c).owesAt () t.succ = (blendDat V c).owesAt () t.castSucc from rfl,
    blendAfter0, blendAfter1, blendAfter2]
  iintro ⟨HΦ, Ho, ⟨%d0, H0⟩, ⟨%d1, H1⟩, ⟨%d2, H2⟩⟩
  iapply (blendKernel c Set.univ _ _ _ _ _ _ _ (blendBlk V c 0 t) (blendBlk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation for the region, at every point. -/
theorem blendObligation (c : Dev nD) : BodyObligation (blendDat (F := F) V c) (defs₀ (F := F)) Variants.none () Set.univ := fun t => by
  rw [bigSep_W0, bigSep_W0]
  exact blendBody V c t

end Cert.KernelIdeal.Hand

end
-- ==== Proof.Ideal.MatmulBase.lean ====
/-
  The matmul region (the second pallas_call): what its two kinds of grid point share.

  The grid is 8 × 4 × 2: block-row `i` of the batch, block-column `j` of the output features, and half `k` of the
  contraction, `k` running fastest, so point `t` has `k = t mod 2`.  The body keeps a 1024×1024 accumulator in a
  scratch buffer of its own.  At `k = 0` it first zeroes the accumulator; at every point it adds the product of the
  current 1024×2048 blocks of the batch and of the blended weights; at `k = 1` it adds the bias row and stores the sum
  into the output block, which the pipeline then writes back.  So there are two kinds of point: an OPENING point
  (`k = 0`: the accumulator restarted, the output buffer left alone and not written back) and a CLOSING point (`k = 1`:
  the accumulator continued from what the opening point left, the output stored).

  Here: each window's block at a point and that the three input buffers hold their blocks at every point (the bias
  row is fetched only when its block index may have moved, and is still there otherwise); the two branch conditions
  decided over the grid; where the output window is idle; names for the buffers the body is called with; and the
  region's plain invariant with the accumulator's buffer split off.
-/
import proofs.«144949_j90048284328682_2_alg».proof.Proof.Gen.KernelIdeal.Launch
import proofs.«144949_j90048284328682_2_alg».proof.Proof.Gen.KernelIdeal.Skeleton
import proofs.«144949_j90048284328682_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- rectangles of these extents are compared coordinate by coordinate along the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The blocks of the four windows -/

/-- The block of window `w` at grid point `t`, read off the window's array as the region finds it. -/
def mmBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The buffer of the batch rows holds their block at every point. -/
theorem mmBefore0_of {c : Dev nD} (dat : Dat τ (Elt F) Unit ℕ (UR sig nD τ) ℕ cfg1 c) (hA : dat.A 0 = V c (Pipeline.arrRef spec1 0))
    (hafter : ∀ t, dat.after 0 t = mmBlk V c 0 t) (t : Fin cfg1.N) (d) : dat.before 0 t d = mmBlk V c 0 t :=
  (dat.before_in_eq_fetched 0 rfl (fun _ => rfl) (fun _ _ _ => rfl) (fun t => by rw [hafter]; unfold Dat.blockOf mmBlk; rw [hA]; try rfl) t d).trans
    (by unfold Dat.fetched Dat.blockOf mmBlk; rw [hA]; try rfl)

/-- The buffer of the blended weights holds their block at every point. -/
theorem mmBefore1_of {c : Dev nD} (dat : Dat τ (Elt F) Unit ℕ (UR sig nD τ) ℕ cfg1 c) (hA : dat.A 1 = V c (Pipeline.arrRef spec1 1))
    (hafter : ∀ t, dat.after 1 t = mmBlk V c 1 t) (t : Fin cfg1.N) (d) : dat.before 1 t d = mmBlk V c 1 t :=
  (dat.before_in_eq_fetched 1 rfl (fun _ => rfl) (fun _ _ _ => rfl) (fun t => by rw [hafter]; unfold Dat.blockOf mmBlk; rw [hA]; try rfl) t d).trans
    (by unfold Dat.fetched Dat.blockOf mmBlk; rw [hA]; try rfl)

/-- The buffer of the bias row holds its block at every point: where it is not fetched its block index has not moved. -/
theorem mmBefore2_of {c : Dev nD} (dat : Dat τ (Elt F) Unit ℕ (UR sig nD τ) ℕ cfg1 c) (hA : dat.A 2 = V c (Pipeline.arrRef spec1 2))
    (hafter : ∀ t, dat.after 2 t = mmBlk V c 2 t) (t : Fin cfg1.N) (d) : dat.before 2 t d = mmBlk V c 2 t :=
  (dat.before_in_eq_fetched 2 rfl (fun _ => rfl) (fun _ _ _ => rfl) (fun t => by rw [hafter]; unfold Dat.blockOf mmBlk; rw [hA]; try rfl) t d).trans
    (by unfold Dat.fetched Dat.blockOf mmBlk; rw [hA]; try rfl)

/-! ## The two branch conditions over the grid -/

/-- "This is the first half of the contraction" (`k = 0`), as the body computes it from the grid coordinates. -/
abbrev isOpening (i : grid1.Coords) : Prop := (Scalar.cmpi .ne (Scalar.extui (Scalar.cmpi .eq (BitVec.ofNat 32 (i 2).val) 0#32)) 0#32) = 1#1
/-- It holds exactly at the even points. -/
theorem isOpening_iff : ∀ t : Fin cfg1.N, isOpening (grid1.coords t) ↔ t.val % 2 = 0 :=
  (by decide +kernel : ∀ t : Fin grid1.N, isOpening (grid1.coords t) ↔ t.val % 2 = 0)

/-- "This is the last half of the contraction" (`k = 1`), as the body computes it. -/
abbrev isClosing (i : grid1.Coords) : Prop := k1_cond2 i = 1#1
/-- It holds exactly at the odd points. -/
theorem isClosing_iff : ∀ t : Fin cfg1.N, isClosing (grid1.coords t) ↔ t.val % 2 = 1 :=
  (by decide +kernel : ∀ t : Fin grid1.N, isClosing (grid1.coords t) ↔ t.val % 2 = 1)

/-! ## Where the windows are idle -/

theorem mmLive0 : ∀ t : Fin cfg1.N, cfg1.idle 0 (grid1.coords t) = false := by decide +kernel
theorem mmLive1 : ∀ t : Fin cfg1.N, cfg1.idle 1 (grid1.coords t) = false := by decide +kernel
theorem mmLive2 : ∀ t : Fin cfg1.N, cfg1.idle 2 (grid1.coords t) = false := by decide +kernel
/-- At an opening point the output window is idle: the body stores nothing into it, -/
theorem mmIdle3 : ∀ t : Fin cfg1.N, isOpening (grid1.coords t) → ¬isClosing (grid1.coords t) → cfg1.idle 3 (grid1.coords t) = true := by decide +kernel
/-- and the pipeline does not write it back there. -/
theorem mmNoFlush3 : ∀ t : Fin cfg1.N, isOpening (grid1.coords t) → ¬isClosing (grid1.coords t) → (cfg1.win 3).flush t = false := by decide +kernel
/-- At a closing point the output window is live. -/
theorem mmLive3 : ∀ t : Fin cfg1.N, ¬isOpening (grid1.coords t) → isClosing (grid1.coords t) → cfg1.idle 3 (grid1.coords t) = false := by decide +kernel

/-! ## The buffers the body is called with -/

/-- Each window's current buffer at point `t`, spelled as the pipeline passes it, and that it is a whole buffer. -/
abbrev mmM0 (t : Fin cfg1.N) : Memref sig .tc .vmem S1024x2048 .bf16 := win1_0.stage (cfg1.slots t 0)
abbrev mmH0 (t : Fin cfg1.N) : (mmM0 t).IsWhole := hstage1_0 ((cfg1.slots t 0).cast nbuf1_0)
abbrev mmM1 (t : Fin cfg1.N) : Memref sig .tc .vmem S1024x2048 .bf16 := win1_1.stage (cfg1.slots t 1)
abbrev mmH1 (t : Fin cfg1.N) : (mmM1 t).IsWhole := hstage1_1 ((cfg1.slots t 1).cast nbuf1_1)
abbrev mmM2 (t : Fin cfg1.N) : Memref sig .tc .vmem S1x1024 .f32 := win1_2.stage (cfg1.slots t 2)
abbrev mmH2 (t : Fin cfg1.N) : (mmM2 t).IsWhole := hstage1_2 ((cfg1.slots t 2).cast nbuf1_2)
abbrev mmM3 (t : Fin cfg1.N) : Memref sig .tc .vmem S1024x1024 .f32 := win1_3.stage (cfg1.slots t 3)
abbrev mmH3 (t : Fin cfg1.N) : (mmM3 t).IsWhole := hstage1_3 ((cfg1.slots t 3).cast nbuf1_3)
/-- The accumulator's buffer: a whole scoped buffer of the kernel's own. -/
abbrev accM : Memref sig .tc .vmem S1024x1024 .f32 := Memref.whole cc1_scratch0
/-- What the region holds of its own besides the accumulator: the six buffers of the other region's windows, each at
    anything, and the random-bit register at some state.  The body never touches any of it. -/
def mmRest (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ r, prngReg c r))

/-- The region's plain invariant spelled out: the six buffers of the other region, the accumulator at anything, and
    the random-bit register. -/
theorem mmPlain_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) accM fullShare d)) ∗ (∃ r, prngReg c r)) := by
  unfold Pipeline.ΦA; rw [scopedRest1_eq]; simp only [accM, owns_whole]; try rfl

/-- The plain invariant is the accumulator at anything beside the rest, -/
theorem mmPlain_split (c : Dev nD) :
    (Pipeline.ΦA spec1 c : sProp 𝕄) ⊢ iprop((∃ d, owns (c : Thread nD τ) accM fullShare d) ∗ mmRest (F := F) c) := by
  rw [mmPlain_eq]; unfold mmRest
  iintro ⟨⟨R1, R2, R3, R4, R5, R6, HS⟩, Hg⟩
  isplitl [HS]; · iexact HS
  isplitl [R1]; · iexact R1
  isplitl [R2]; · iexact R2
  isplitl [R3]; · iexact R3
  isplitl [R4]; · iexact R4
  isplitl [R5]; · iexact R5
  isplitl [R6]; · iexact R6
  iexact Hg

/-- and conversely. -/
theorem mmPlain_join (c : Dev nD) :
    iprop((∃ d, owns (c : Thread nD τ) accM fullShare d) ∗ mmRest (F := F) c) ⊢ (Pipeline.ΦA spec1 c : sProp 𝕄) := by
  rw [mmPlain_eq]; unfold mmRest
  iintro ⟨HS, R1, R2, R3, R4, R5, R6, Hg⟩
  isplitr [Hg]
  · isplitl [R1]; · iexact R1
    isplitl [R2]; · iexact R2
    isplitl [R3]; · iexact R3
    isplitl [R4]; · iexact R4
    isplitl [R5]; · iexact R5
    isplitl [R6]; · iexact R6
    iexact HS
  iexact Hg

end Cert.KernelIdeal.Hand

end
-- ==== Proof.Ideal.MatmulOpen.lean ====
/-
  The matmul body at an OPENING point (`k = 0`, the first half of the contraction), run once on arbitrary whole buffers.

  The accumulator is zeroed and the product of the two input blocks is added to it; the second conditional is not
  taken, so the bias row is not read and the output buffer is neither read nor written.  The run records what the
  accumulator's buffer ends with as the list of the body's stores into it (last store first).
-/
import proofs.«144949_j90048284328682_2_alg».proof.Proof.Gen.KernelIdeal.Launch
import proofs.«144949_j90048284328682_2_alg».proof.Proof.Gen.KernelIdeal.Skeleton
import proofs.«144949_j90048284328682_2_alg».proof.Proof.Gen.KernelIdeal.Points
import proofs.«144949_j90048284328682_2_alg».proof.Proof.Ideal.MatmulBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- rectangles of these extents are compared coordinate by coordinate along the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores an opening point makes into the accumulator (last first), WITH the proof that on whole buffers — the
    three inputs at contents `x`, `w`, `b`, the output at contents `o` it does not touch, the accumulator at anything —
    the body runs to the end holding the inputs and the output as they were and the accumulator with those stores
    written. -/
noncomputable def mmOpenRun (c : Dev nD) (i : grid1.Coords)
    (arg3 : Memref sig .tc .vmem S1024x2048 .bf16) (harg3 : arg3.IsWhole) (arg4 : Memref sig .tc .vmem S1024x2048 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hc0 : isOpening i) (hc1 : ¬isClosing i)
    (x : Vec F S1024x2048 .bf16) (w : Vec F S1024x2048 .bf16) (b : Vec F S1x1024 .f32) :
    { LS : List (View.Piece (Elt F) S1024x1024 .f32) //
      ∀ (o : Vec F S1024x1024 .f32) (E : Set ℕ) (K : PUnit → sProp 𝕄),
        iprop(owns (c : Thread nD τ) arg3 fullShare x ∗ owns (c : Thread nD τ) arg4 fullShare w ∗ owns (c : Thread nD τ) arg5 fullShare b
            ∗ owns (c : Thread nD τ) arg6 fullShare o ∗ (∃ d, owns (c : Thread nD τ) arg7 fullShare d)
            ∗ (iprop(owns (c : Thread nD τ) arg3 fullShare x ∗ owns (c : Thread nD τ) arg4 fullShare w ∗ owns (c : Thread nD τ) arg5 fullShare b
                ∗ owns (c : Thread nD τ) arg6 fullShare o
                ∗ (∃ f, arg7.view.loc (c : Thread nD τ) ↦[arg7.view.set]{fullShare} arg7.view.writes (Elt F) f LS)) -∗ K ⟨⟩))
          ⊢ wp frame (wpE (defs₀ (F := F)) Variants.none c none) E (cc1__matmul_kernel i arg3 harg3 arg4 harg4 arg5 harg5 arg6 harg6 arg7 harg7) K } := by
  refine ⟨?_, fun o E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.Hand

end
-- ==== Proof.Ideal.MatmulClose.lean ====
/-
  The matmul body at a CLOSING point (`k = 1`, the last half of the contraction), run once on arbitrary whole buffers.

  The accumulator is not zeroed: it holds what the opening point before left, `a`.  The product of the two input
  blocks is added to it, and then the accumulator plus the bias row is stored over the whole output block.  The run
  records what the output's buffer and the accumulator's buffer end with as the lists of the body's stores into them
  (last store first).
-/
import proofs.«144949_j90048284328682_2_alg».proof.Proof.Gen.KernelIdeal.Launch
import proofs.«144949_j90048284328682_2_alg».proof.Proof.Gen.KernelIdeal.Skeleton
import proofs.«144949_j90048284328682_2_alg».proof.Proof.Gen.KernelIdeal.Points
import proofs.«144949_j90048284328682_2_alg».proof.Proof.Ideal.MatmulBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- rectangles of these extents are compared coordinate by coordinate along the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores a closing point makes into the output block and into the accumulator (last first), WITH the proof that on
    whole buffers — the three inputs at contents `x`, `w`, `b`, the output at anything, the accumulator at `a` — the body
    runs to the end holding the inputs as they were and the output and the accumulator with those stores written. -/
noncomputable def mmCloseRun (c : Dev nD) (i : grid1.Coords)
    (arg3 : Memref sig .tc .vmem S1024x2048 .bf16) (harg3 : arg3.IsWhole) (arg4 : Memref sig .tc .vmem S1024x2048 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hc0 : ¬isOpening i) (hc1 : isClosing i)
    (x : Vec F S1024x2048 .bf16) (w : Vec F S1024x2048 .bf16) (b : Vec F S1x1024 .f32) (a : Vec F S1024x1024 .f32) :
    Σ' (LO : List (View.Piece (Elt F) S1024x1024 .f32)), { LS : List (View.Piece (Elt F) S1024x1024 .f32) //
      ∀ (E : Set ℕ) (K : PUnit → sProp 𝕄),
        iprop(owns (c : Thread nD τ) arg3 fullShare x ∗ owns (c : Thread nD τ) arg4 fullShare w ∗ owns (c : Thread nD τ) arg5 fullShare b
            ∗ (∃ d, owns (c : Thread nD τ) arg6 fullShare d) ∗ owns (c : Thread nD τ) arg7 fullShare a
            ∗ (iprop(owns (c : Thread nD τ) arg3 fullShare x ∗ owns (c : Thread nD τ) arg4 fullShare w ∗ owns (c : Thread nD τ) arg5 fullShare b
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LS)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.KernelIdeal.Hand

end
-- ==== Proof.Ideal.MatmulFrame.lean ====
/-
  The matmul region as the pipeline sees it, at any float instance and for any contents `V` of the core's buffers at
  the region's entry: what the accumulator and the output buffer hold after every grid point, the region invariant,
  the proof data, and the per-point obligation.

  After an opening point (even `t`) the accumulator holds the stores of that point's run, a function of the point's
  input blocks only (`accOpenAt`).  After a closing point (odd `t`) it holds the stores of the closing run started
  from what the opening point `t - 1` left (`accCloseAt`), and the output buffer holds that run's stores into it
  (`outCloseAt`).  The invariant between points `n` and `n + 1` says the accumulator's buffer holds `accAt n`; before
  the first point it is the region's plain invariant (the accumulator at anything), and after the last point the named
  contents are forgotten again.
-/
import proofs.«144949_j90048284328682_2_alg».proof.Proof.Gen.KernelIdeal.Launch
import proofs.«144949_j90048284328682_2_alg».proof.Proof.Gen.KernelIdeal.Skeleton
import proofs.«144949_j90048284328682_2_alg».proof.Proof.Gen.KernelIdeal.Points
import proofs.«144949_j90048284328682_2_alg».proof.Proof.Ideal.MatmulOpen
import proofs.«144949_j90048284328682_2_alg».proof.Proof.Ideal.MatmulClose
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- rectangles of these extents are compared coordinate by coordinate along the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## What one run leaves, as functions of what it was given -/

/-- The accumulator after an opening run on inputs `x`, `w`, `b`: its stores read back. -/
def accOpenOf (c : Dev nD) (t : Fin cfg1.N) (hc0 : isOpening (grid1.coords t)) (hc1 : ¬isClosing (grid1.coords t))
    (x : Vec F S1024x2048 .bf16) (w : Vec F S1024x2048 .bf16) (b : Vec F S1x1024 .f32) : Vec F S1024x1024 .f32 :=
  View.canon (mmOpenRun c (grid1.coords t) (mmM0 t) (mmH0 t) (mmM1 t) (mmH1 t) (mmM2 t) (mmH2 t) (mmM3 t) (mmH3 t) accM (Memref.isWhole_whole _) hc0 hc1 x w b).1

/-- Those stores cover the accumulator. -/
theorem accOpenCover (c : Dev nD) (t : Fin cfg1.N) (hc0 : isOpening (grid1.coords t)) (hc1 : ¬isClosing (grid1.coords t))
    (x : Vec F S1024x2048 .bf16) (w : Vec F S1024x2048 .bf16) (b : Vec F S1x1024 .f32) (y : S1024x1024.Idx) :
    ∃ pc ∈ (mmOpenRun c (grid1.coords t) (mmM0 t) (mmH0 t) (mmM1 t) (mmH1 t) (mmM2 t) (mmH2 t) (mmM3 t) (mmH3 t) accM (Memref.isWhole_whole _) hc0 hc1 x w b).1, y ∈ pc.1.set :=
  View.cover_of_tiledL _ S1024x1024.size (by sl_kernel_rfl) y

/-- The accumulator after a closing run on inputs `x`, `w`, `b` started from the accumulator `a`. -/
def accCloseOf (c : Dev nD) (t : Fin cfg1.N) (hc0 : ¬isOpening (grid1.coords t)) (hc1 : isClosing (grid1.coords t))
    (x : Vec F S1024x2048 .bf16) (w : Vec F S1024x2048 .bf16) (b : Vec F S1x1024 .f32) (a : Vec F S1024x1024 .f32) : Vec F S1024x1024 .f32 :=
  View.canon (mmCloseRun c (grid1.coords t) (mmM0 t) (mmH0 t) (mmM1 t) (mmH1 t) (mmM2 t) (mmH2 t) (mmM3 t) (mmH3 t) accM (Memref.isWhole_whole _) hc0 hc1 x w b a).2.1

theorem accCloseCover (c : Dev nD) (t : Fin cfg1.N) (hc0 : ¬isOpening (grid1.coords t)) (hc1 : isClosing (grid1.coords t))
    (x : Vec F S1024x2048 .bf16) (w : Vec F S1024x2048 .bf16) (b : Vec F S1x1024 .f32) (a : Vec F S1024x1024 .f32) (y : S1024x1024.Idx) :
    ∃ pc ∈ (mmCloseRun c (grid1.coords t) (mmM0 t) (mmH0 t) (mmM1 t) (mmH1 t) (mmM2 t) (mmH2 t) (mmM3 t) (mmH3 t) accM (Memref.isWhole_whole _) hc0 hc1 x w b a).2.1, y ∈ pc.1.set :=
  View.cover_of_tiledL _ S1024x1024.size (by sl_kernel_rfl) y

/-- The output block after that closing run. -/
def outCloseOf (c : Dev nD) (t : Fin cfg1.N) (hc0 : ¬isOpening (grid1.coords t)) (hc1 : isClosing (grid1.coords t))
    (x : Vec F S1024x2048 .bf16) (w : Vec F S1024x2048 .bf16) (b : Vec F S1x1024 .f32) (a : Vec F S1024x1024 .f32) : Vec F S1024x1024 .f32 :=
  View.canon (mmCloseRun c (grid1.coords t) (mmM0 t) (mmH0 t) (mmM1 t) (mmH1 t) (mmM2 t) (mmH2 t) (mmM3 t) (mmH3 t) accM (Memref.isWhole_whole _) hc0 hc1 x w b a).1

theorem outCloseCover (c : Dev nD) (t : Fin cfg1.N) (hc0 : ¬isOpening (grid1.coords t)) (hc1 : isClosing (grid1.coords t))
    (x : Vec F S1024x2048 .bf16) (w : Vec F S1024x2048 .bf16) (b : Vec F S1x1024 .f32) (a : Vec F S1024x1024 .f32) (y : S1024x1024.Idx) :
    ∃ pc ∈ (mmCloseRun c (grid1.coords t) (mmM0 t) (mmH0 t) (mmM1 t) (mmH1 t) (mmM2 t) (mmH2 t) (mmM3 t) (mmH3 t) accM (Memref.isWhole_whole _) hc0 hc1 x w b a).1, y ∈ pc.1.set :=
  View.cover_of_tiledL _ S1024x1024.size (by sl_kernel_rfl) y

/-! ## Point by point -/

theorem opening_of_even (t : Fin cfg1.N) (h : t.val % 2 = 0) : isOpening (grid1.coords t) := (isOpening_iff t).mpr h
theorem notClosing_of_even (t : Fin cfg1.N) (h : t.val % 2 = 0) : ¬isClosing (grid1.coords t) :=
  fun hc => by have := (isClosing_iff t).mp hc; omega
theorem closing_of_odd (t : Fin cfg1.N) (h : t.val % 2 = 1) : isClosing (grid1.coords t) := (isClosing_iff t).mpr h
theorem notOpening_of_odd (t : Fin cfg1.N) (h : t.val % 2 = 1) : ¬isOpening (grid1.coords t) :=
  fun hc => by have := (isOpening_iff t).mp hc; omega

/-- The point before `t` (point 0 stays). -/
def prevPt (t : Fin cfg1.N) : Fin cfg1.N := ⟨t.val - 1, Nat.lt_of_le_of_lt (Nat.sub_le _ _) t.isLt⟩

theorem prev_even (t : Fin cfg1.N) (h : t.val % 2 = 1) : (prevPt t).val % 2 = 0 := by
  show (t.val - 1) % 2 = 0; omega

/-- The accumulator after the opening point `t`. -/
def accOpenAt (c : Dev nD) (t : Fin cfg1.N) (h : t.val % 2 = 0) : Vec F S1024x1024 .f32 :=
  accOpenOf c t (opening_of_even t h) (notClosing_of_even t h) (mmBlk V c 0 t) (mmBlk V c 1 t) (mmBlk V c 2 t)

/-- The accumulator after the closing point `t`: the closing run started from what the opening point before left. -/
def accCloseAt (c : Dev nD) (t : Fin cfg1.N) (h : t.val % 2 = 1) : Vec F S1024x1024 .f32 :=
  accCloseOf c t (notOpening_of_odd t h) (closing_of_odd t h) (mmBlk V c 0 t) (mmBlk V c 1 t) (mmBlk V c 2 t)
    (accOpenAt V c (prevPt t) (prev_even t h))

/-- The output block after the closing point `t`. -/
def outCloseAt (c : Dev nD) (t : Fin cfg1.N) (h : t.val % 2 = 1) : Vec F S1024x1024 .f32 :=
  outCloseOf c t (notOpening_of_odd t h) (closing_of_odd t h) (mmBlk V c 0 t) (mmBlk V c 1 t) (mmBlk V c 2 t)
    (accOpenAt V c (prevPt t) (prev_even t h))

/-- The accumulator after point `t`. -/
def accAt (c : Dev nD) (t : Fin cfg1.N) : Vec F S1024x1024 .f32 :=
  if h : t.val % 2 = 0 then accOpenAt V c t h else accCloseAt V c t (by omega)

/-- The output buffer after point `t`: at a closing point what the run stored; at an opening point nothing is stored
    and nothing is written back, and the value named here is never consulted. -/
def outAt (c : Dev nD) (t : Fin cfg1.N) : Vec F S1024x1024 .f32 :=
  if h : t.val % 2 = 1 then outCloseAt V c t h else View.canon []

theorem accAt_even (c : Dev nD) (t : Fin cfg1.N) (h : t.val % 2 = 0) : accAt V c t = accOpenAt V c t h := dif_pos h
theorem accAt_odd (c : Dev nD) (t : Fin cfg1.N) (h : t.val % 2 = 1) : accAt V c t = accCloseAt V c t h :=
  dif_neg (by omega)
theorem outAt_odd (c : Dev nD) (t : Fin cfg1.N) (h : t.val % 2 = 1) : outAt V c t = outCloseAt V c t h := dif_pos h

/-! ## The invariant between points -/

/-- Before position `n`: at the start the region's plain invariant; afterwards the accumulator's buffer at what point
    `n - 1` left, beside the rest. -/
def mmInv (c : Dev nD) : (n : ℕ) → n ≤ cfg1.N → sProp 𝕄
  | 0, _ => Pipeline.ΦA spec1 c
  | n + 1, hn => iprop(owns (c : Thread nD τ) accM fullShare (accAt V c ⟨n, hn⟩) ∗ mmRest (F := F) c)

theorem mmInv_zero (c : Dev nD) (n : ℕ) (h : n ≤ cfg1.N) (hz : n = 0) : mmInv V c n h = Pipeline.ΦA spec1 c := by
  subst hz; rfl

theorem mmInv_succ (c : Dev nD) (n : ℕ) (hn : n < cfg1.N) :
    mmInv V c (n + 1) hn = iprop(owns (c : Thread nD τ) accM fullShare (accAt V c ⟨n, hn⟩) ∗ mmRest (F := F) c) := rfl

theorem mmInv_pos (c : Dev nD) (n : ℕ) (h : n ≤ cfg1.N) (hz : n ≠ 0) :
    mmInv V c n h = iprop(owns (c : Thread nD τ) accM fullShare (accAt V c ⟨n - 1, by omega⟩) ∗ mmRest (F := F) c) := by
  cases n with
  | zero => exact absurd rfl hz
  | succ n => rfl

/-! ## The proof data -/

/-- What the pipeline is told about the region on core `c`: the arrays as the region finds them; after the body at
    point `t` each input buffer still at its block and the output buffer at `outAt`; the invariant `mmInv`; nothing
    owed. -/
def mmDat (c : Dev nD) : Dat τ (Elt F) Unit ℕ (UR sig nD τ) ℕ cfg1 c where
  A w := V c (Pipeline.arrRef spec1 w)
  after w t := match w with
    | ⟨0, _⟩ => mmBlk V c 0 t
    | ⟨1, _⟩ => mmBlk V c 1 t
    | ⟨2, _⟩ => mmBlk V c 2 t
    | ⟨3, _⟩ => outAt V c t
  Φ t := mmInv V c t.val (Nat.le_of_lt_succ t.isLt)
  q _ := fullShare
  owed _ := 0

theorem mmA_eq (c : Dev nD) (w : Fin cfg1.W) : (mmDat V c).A w = V c (Pipeline.arrRef spec1 w) := by
  dsimp only [mmDat]

theorem mmInv_castSucc (c : Dev nD) (t : Fin cfg1.N) :
    (mmDat V c).Φ t.castSucc = mmInv V c t.val (Nat.le_of_lt t.isLt) := by
  dsimp only [mmDat]; simp only [Fin.coe_castSucc]

theorem mmAfter0 (c : Dev nD) (t : Fin cfg1.N) : (mmDat V c).after 0 t = mmBlk V c 0 t := by dsimp only [mmDat]
theorem mmAfter1 (c : Dev nD) (t : Fin cfg1.N) : (mmDat V c).after 1 t = mmBlk V c 1 t := by dsimp only [mmDat]
theorem mmAfter2 (c : Dev nD) (t : Fin cfg1.N) : (mmDat V c).after 2 t = mmBlk V c 2 t := by dsimp only [mmDat]
theorem mmAfter3 (c : Dev nD) (t : Fin cfg1.N) : (mmDat V c).after 3 t = outAt V c t := by dsimp only [mmDat]

theorem mmBefore0 (c : Dev nD) (t : Fin cfg1.N) (d) : (mmDat V c).before 0 t d = mmBlk V c 0 t :=
  mmBefore0_of V (mmDat V c) (mmA_eq V c 0) (mmAfter0 V c) t d
theorem mmBefore1 (c : Dev nD) (t : Fin cfg1.N) (d) : (mmDat V c).before 1 t d = mmBlk V c 1 t :=
  mmBefore1_of V (mmDat V c) (mmA_eq V c 1) (mmAfter1 V c) t d
theorem mmBefore2 (c : Dev nD) (t : Fin cfg1.N) (d) : (mmDat V c).before 2 t d = mmBlk V c 2 t :=
  mmBefore2_of V (mmDat V c) (mmA_eq V c 2) (mmAfter2 V c) t d

/-! ## The obligation at a point -/

/-- What the body is called with at point `t`. -/
def mmPre (c : Dev nD) (t : Fin cfg1.N) : sProp 𝕄 :=
  iprop((mmDat V c).Φ t.castSucc ∗ (mmDat V c).owesAt () t.castSucc
    ∗ (∃ d, owns (c : Thread nD τ) (mmM0 t) fullShare ((mmDat V c).before 0 t d))
    ∗ (∃ d, owns (c : Thread nD τ) (mmM1 t) fullShare ((mmDat V c).before 1 t d))
    ∗ (∃ d, owns (c : Thread nD τ) (mmM2 t) fullShare ((mmDat V c).before 2 t d))
    ∗ (∃ d, owns (c : Thread nD τ) (mmM3 t) fullShare ((mmDat V c).before 3 t d)))

/-- What it hands back. -/
def mmPost (c : Dev nD) (t : Fin cfg1.N) : sProp 𝕄 :=
  iprop((mmDat V c).Φ t.succ ∗ (mmDat V c).owesAt () t.succ
    ∗ (mmDat V c).leavesExact 0 t
    ∗ (mmDat V c).leavesExact 1 t
    ∗ (mmDat V c).leavesExact 2 t
    ∗ (mmDat V c).leavesExact 3 t)

theorem mmLeaves0 (c : Dev nD) (t : Fin cfg1.N) :
    (mmDat V c).leavesExact 0 t = owns (c : Thread nD τ) (mmM0 t) fullShare (mmBlk V c 0 t) := by
  unfold Dat.leavesExact; rw [mmLive0 t, mmAfter0]
theorem mmLeaves1 (c : Dev nD) (t : Fin cfg1.N) :
    (mmDat V c).leavesExact 1 t = owns (c : Thread nD τ) (mmM1 t) fullShare (mmBlk V c 1 t) := by
  unfold Dat.leavesExact; rw [mmLive1 t, mmAfter1]
theorem mmLeaves2 (c : Dev nD) (t : Fin cfg1.N) :
    (mmDat V c).leavesExact 2 t = owns (c : Thread nD τ) (mmM2 t) fullShare (mmBlk V c 2 t) := by
  unfold Dat.leavesExact; rw [mmLive2 t, mmAfter2]

set_option maxHeartbeats 4000000 in
/-- The body at any point.  The input buffers hold their blocks.  At an even point the opening run applies: the
    accumulator is handed over at anything (from the plain invariant at the first point, by forgetting its contents
    later) and comes back at `accAt t`; the output buffer passes through untouched.  At an odd point the closing run
    applies: the accumulator is handed over at what the opening point before left and comes back at `accAt t`, the output
    buffer at `outAt t`.  The rest of the invariant and the core's dues pass through unread. -/
theorem mmBody (c : Dev nD) (t : Fin cfg1.N) :
    mmPre V c t ⊢ wp frame (wpE (defs₀ (F := F)) Variants.none c none) Set.univ (bodyAt1 t) (fun _ => mmPost V c t) := by
  unfold mmPre mmPost bodyAt1
  simp only [mmBefore0, mmBefore1, mmBefore2]
  rw [show (mmDat V c).owesAt () t.succ = (mmDat V c).owesAt () t.castSucc from rfl]
  rw [show (mmDat V c).Φ t.succ = mmInv V c (t.val + 1) t.isLt from rfl, mmInv_succ]
  rw [mmLeaves0, mmLeaves1, mmLeaves2]
  have hN : t.val < 64 := lt_of_lt_of_eq t.isLt (show cfg1.N = 64 from N_1)
  by_cases h0 : t.val % 2 = 0
  · rw [Dat.leavesExact_idle (mmDat V c) 3 t (mmIdle3 t (opening_of_even t h0) (notClosing_of_even t h0)) (mmNoFlush3 t (opening_of_even t h0) (notClosing_of_even t h0))]
    rw [show (⟨t.val, t.isLt⟩ : Fin cfg1.N) = t from rfl, accAt_even V c t h0]
    unfold accOpenAt accOpenOf
    have hacc : (mmDat V c).Φ t.castSucc ⊢ iprop((∃ d, owns (c : Thread nD τ) accM fullShare d) ∗ mmRest (F := F) c) := by
      rw [mmInv_castSucc V c t]
      by_cases hz : t.val = 0
      · rw [mmInv_zero V c _ _ hz]; exact mmPlain_split c
      · rw [mmInv_pos V c _ _ hz]
        iintro ⟨HS, Hr⟩
        isplitl [HS]; · iexists _; iexact HS
        iexact Hr
    iintro ⟨HΦ, Ho, ⟨%d0, H0⟩, ⟨%d1, H1⟩, ⟨%d2, H2⟩, ⟨%d3, H3⟩⟩
    ihave HΦ' := hacc $$ HΦ
    icases HΦ' with ⟨HS, Hr⟩
    iapply ((mmOpenRun c (grid1.coords t) _ _ _ _ _ _ _ _ _ _ (opening_of_even t h0) (notClosing_of_even t h0) (mmBlk V c 0 t) (mmBlk V c 1 t) (mmBlk V c 2 t)).2 _ Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [HS Hr]
    · isplitl [HS]
      · unfold owns; iexists _; isplitr
        swap; · iexact HS
        ipureintro; exact View.read_writes_eq_canon _ _ _ (accOpenCover c t _ _ _ _ _)
      iexact Hr
    isplitl [Ho]; · iexact Ho
    isplitl [H0]; · iexact H0
    isplitl [H1]; · iexact H1
    isplitl [H2]; · iexact H2
    iexists _; iexact H3
  · have h1 : t.val % 2 = 1 := by omega
    have hz : t.val ≠ 0 := by omega
    rw [show (mmDat V c).leavesExact 3 t = owns (c : Thread nD τ) (mmM3 t) fullShare ((mmDat V c).after 3 t) from by
      unfold Dat.leavesExact; rw [mmLive3 t (notOpening_of_odd t h1) (closing_of_odd t h1)], mmAfter3, outAt_odd V c t h1]
    rw [show (⟨t.val, t.isLt⟩ : Fin cfg1.N) = t from rfl, accAt_odd V c t h1]
    unfold accCloseAt outCloseAt accCloseOf outCloseOf
    rw [mmInv_castSucc V c t, mmInv_pos V c _ _ hz]
    rw [show (⟨t.val - 1, by omega⟩ : Fin cfg1.N) = prevPt t from rfl, accAt_even V c (prevPt t) (prev_even t h1)]
    iintro ⟨⟨HS, Hr⟩, Ho, ⟨%d0, H0⟩, ⟨%d1, H1⟩, ⟨%d2, H2⟩, ⟨%d3, H3⟩⟩
    iapply ((mmCloseRun c (grid1.coords t) _ _ _ _ _ _ _ _ _ _ (notOpening_of_odd t h1) (closing_of_odd t h1) (mmBlk V c 0 t) (mmBlk V c 1 t) (mmBlk V c 2 t) _).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%eo, H3⟩, ⟨%es, HS⟩⟩
    isplitl [HS Hr]
    · isplitl [HS]
      · unfold owns; iexists _; isplitr
        swap; · iexact HS
        ipureintro; exact View.read_writes_eq_canon _ _ _ (accCloseCover c t _ _ _ _ _ _)
      iexact Hr
    isplitl [Ho]; · iexact Ho
    isplitl [H0]; · iexact H0
    isplitl [H1]; · iexact H1
    isplitl [H2]; · iexact H2
    unfold owns; iexists _; isplitr
    swap; · iexact H3
    ipureintro; exact View.read_writes_eq_canon _ _ _ (outCloseCover c t _ _ _ _ _ _)

/-- The pipeline's obligation for the region, at every point. -/
theorem mmObligation (c : Dev nD) : BodyObligation (mmDat (F := F) V c) (defs₀ (F := F)) Variants.none () Set.univ := fun t => by
  rw [bigSep_W1, bigSep_W1]
  exact mmBody V c t

/-- What the launch hands the region is the invariant before the first point. -/
theorem mmEnter (c : Dev nD) : Pipeline.ΦA spec1 c ⊢ (mmDat V c).Φ 0 := by
  rw [show (mmDat V c).Φ 0 = mmInv V c 0 (Nat.zero_le _) from rfl, mmInv_zero V c 0 _ rfl]
  try exact Idealize.SL.BI.Entails.refl _

/-- After the last point the invariant gives the plain one back: the accumulator's contents are forgotten. -/
theorem mmLeave (c : Dev nD) : (mmDat V c).Φ (Fin.last cfg1.N) ⊢ Pipeline.ΦA spec1 c := by
  have hne : (Fin.last cfg1.N).val ≠ 0 := by rw [Fin.val_last]; have : cfg1.N = 64 := N_1; omega
  rw [show (mmDat V c).Φ (Fin.last cfg1.N) = mmInv V c (Fin.last cfg1.N).val (Nat.le_of_lt_succ (Fin.last cfg1.N).isLt) from rfl,
    mmInv_pos V c _ _ hne]
  have hforget : iprop(owns (c : Thread nD τ) accM fullShare (accAt V c ⟨(Fin.last cfg1.N).val - 1, by omega⟩) ∗ mmRest (F := F) c)
      ⊢ iprop((∃ d, owns (c : Thread nD τ) accM fullShare d) ∗ mmRest (F := F) c) := by
    iintro ⟨HS, Hr⟩
    isplitl [HS]; · iexists _; iexact HS
    iexact Hr
  exact hforget.trans (mmPlain_join c)

end Cert.KernelIdeal.Hand

end
-- ==== Proof.Ideal.Run.lean ====
/-
  The whole program at any float instance: the weight-blend region, the two host lines (the bias row reshaped to
  1×4096, the batch rounded to bf16), the matmul region — composed into one statement about every weakly fair
  execution from any launch memory.

  The contents of the core's unscoped buffers are followed through the program: `S0` at launch; `S1` after the blend
  region, which changes only the blended-weight array (to what its sixteen write-backs leave); `S2` after the two host
  lines; `S3` after the matmul region, which changes only the result array (to what its thirty-two write-backs
  leave).  Each region enters from "every unscoped buffer at the boundary's contents, the random-bit register at some
  state, nothing owed" and leaves in the same form at the next boundary.  The run's conclusion (`run_all`): the
  program terminates without a fault and every unscoped buffer ends at `S3`.  Two readings of it: no argument array is
  written by any step, so each ends as launched (`frame`); and the result array ends at the matmul region's final
  array (`S3_result`).
-/
import proofs.«144949_j90048284328682_2_alg».proof.Proof.Gen.KernelIdeal.Launch
import proofs.«144949_j90048284328682_2_alg».proof.Proof.Gen.KernelIdeal.Skeleton
import proofs.«144949_j90048284328682_2_alg».proof.Proof.Gen.KernelIdeal.Points
import proofs.«144949_j90048284328682_2_alg».proof.Proof.Ideal.Blend
import proofs.«144949_j90048284328682_2_alg».proof.Proof.Ideal.MatmulFrame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- rectangles of these extents are compared coordinate by coordinate along the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev S0 : Dev nD → Valuation τ sig (Elt F) := fun c b => (s₀ m ρ).mem ((c : Dev nD), b)
/-- The same read at the TensorCore's references: what the blend region is entered from. -/
abbrev E0 : (c : Dev nD) → (b : Ref sig .tc) → Buf (Elt F) ((c : Thread nD τ).loc b) := fun c b => S0 m ρ c b
/-- After the blend region: its arrays at what the pipeline leaves, every other buffer as before. -/
def S1 (c : Dev nD) : Valuation τ sig (Elt F) :=
  Pipeline.withArrays spec0 c (S0 m ρ c) fun w => (blendDat (E0 m ρ) c).arrAt w cfg0.N
theorem S1_arr (c : Dev nD) (w : Fin cfg0.W) :
    S1 m ρ c (Proc.devRef .tc (Pipeline.arrRef spec0 w)) = (blendDat (E0 m ρ) c).arrAt w cfg0.N := by
  unfold S1; exact Pipeline.withArrays_arr spec0 launch0.win.arr_inj c _ _ w
theorem S1_of_ne (c : Dev nD) (b : Ref sig .tc) (hb : ∀ w, Pipeline.arrRef spec0 w ≠ b) :
    S1 m ρ c (Proc.devRef .tc b) = S0 m ρ c (Proc.devRef .tc b) := by
  unfold S1; exact Pipeline.withArrays_of_ne spec0 c _ _ b hb
abbrev E1 : (c : Dev nD) → (b : Ref sig .tc) → Buf (Elt F) ((c : Thread nD τ).loc b) := fun c b => S1 m ρ c b
theorem blendFinal (c : Dev nD) (w : Fin cfg0.W) : (blendDat (E0 m ρ) c).arrAt w cfg0.N = E1 m ρ c (Pipeline.arrRef spec0 w) :=
  (S1_arr m ρ c w).symm
theorem blendKeeps (c : Dev nD) : ∀ b, b ∉ Finset.univ.image (Pipeline.arrRef spec0) → E1 m ρ c b = E0 m ρ c b :=
  fun b hb => S1_of_ne m ρ c b fun w e => hb (Finset.mem_image.mpr ⟨w, Finset.mem_univ _, e⟩)

/-- After the two host lines: what the matmul region is entered from. -/
abbrev S2 : Dev nD → Valuation τ sig (Elt F) := fun c => StableHlo.after hostOps1 (S1 m ρ c)
abbrev E2 : (c : Dev nD) → (b : Ref sig .tc) → Buf (Elt F) ((c : Thread nD τ).loc b) := fun c b => S2 m ρ c b
/-- After the matmul region. -/
def S3 (c : Dev nD) : Valuation τ sig (Elt F) :=
  Pipeline.withArrays spec1 c (S2 m ρ c) fun w => (mmDat (E2 m ρ) c).arrAt w cfg1.N
theorem S3_arr (c : Dev nD) (w : Fin cfg1.W) :
    S3 m ρ c (Proc.devRef .tc (Pipeline.arrRef spec1 w)) = (mmDat (E2 m ρ) c).arrAt w cfg1.N := by
  unfold S3; exact Pipeline.withArrays_arr spec1 launch1.win.arr_inj c _ _ w
theorem S3_of_ne (c : Dev nD) (b : Ref sig .tc) (hb : ∀ w, Pipeline.arrRef spec1 w ≠ b) :
    S3 m ρ c (Proc.devRef .tc b) = S2 m ρ c (Proc.devRef .tc b) := by
  unfold S3; exact Pipeline.withArrays_of_ne spec1 c _ _ b hb
abbrev E3 : (c : Dev nD) → (b : Ref sig .tc) → Buf (Elt F) ((c : Thread nD τ).loc b) := fun c b => S3 m ρ c b
theorem mmFinal (c : Dev nD) (w : Fin cfg1.W) : (mmDat (E2 m ρ) c).arrAt w cfg1.N = E3 m ρ c (Pipeline.arrRef spec1 w) :=
  (S3_arr m ρ c w).symm
theorem mmKeeps (c : Dev nD) : ∀ b, b ∉ Finset.univ.image (Pipeline.arrRef spec1) → E3 m ρ c b = E2 m ρ c b :=
  fun b hb => S3_of_ne m ρ c b fun w e => hb (Finset.mem_image.mpr ⟨w, Finset.mem_univ _, e⟩)

/-- The result array ends at the matmul region's final array for its output window. -/
theorem S3_result (c : Dev nD) : S3 m ρ c (Proc.devRef .tc main_v3) = (mmDat (E2 m ρ) c).arrAt 3 cfg1.N :=
  S3_arr m ρ c 3

/-! ### No step writes an argument -/

/-- An argument no window of the matmul region stages and no host line writes is, after everything, what the blend
    region left of it. -/
theorem S3_to_S1 (c : Dev nD) (b : Ref sig .tc) (h1 : ∀ w, Pipeline.arrRef spec1 w ≠ b)
    (h2 : b ≠ main_v1) (h3 : b ≠ main_v2) : S3 m ρ c (Proc.devRef .tc b) = S1 m ρ c (Proc.devRef .tc b) :=
  (S3_of_ne m ρ c b h1).trans <| StableHlo.after_of_forall_not_mem (b := Proc.devRef .tc b) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    exact ⟨StableHlo.devRef_ne_of_ne h2, StableHlo.devRef_ne_of_ne h3⟩))

theorem S3_main_arg0 (c : Dev nD) : S3 m ρ c (Proc.devRef .tc main_arg0) = m ((c : Thread nD τ).loc main_arg0) :=
  (S3_to_S1 m ρ c main_arg0 (by decide) (by decide) (by decide)).trans ((S1_of_ne m ρ c main_arg0 (by decide)).trans rfl)
theorem S3_main_arg3 (c : Dev nD) : S3 m ρ c (Proc.devRef .tc main_arg3) = m ((c : Thread nD τ).loc main_arg3) :=
  (S3_to_S1 m ρ c main_arg3 (by decide) (by decide) (by decide)).trans ((S1_of_ne m ρ c main_arg3 (by decide)).trans rfl)
/-- The two weight arrays are staged by the blend region as inputs: an input's array is never written back. -/
theorem S3_main_arg1 (c : Dev nD) : S3 m ρ c (Proc.devRef .tc main_arg1) = m ((c : Thread nD τ).loc main_arg1) :=
  (S3_to_S1 m ρ c main_arg1 (by decide) (by decide) (by decide)).trans
    ((S1_arr m ρ c 0).trans (((blendDat (E0 m ρ) c).arrAt_in 0 rfl _).trans ((blendA_eq (E0 m ρ) c 0).trans rfl)))
theorem S3_main_arg2 (c : Dev nD) : S3 m ρ c (Proc.devRef .tc main_arg2) = m ((c : Thread nD τ).loc main_arg2) :=
  (S3_to_S1 m ρ c main_arg2 (by decide) (by decide) (by decide)).trans
    ((S1_arr m ρ c 1).trans (((blendDat (E0 m ρ) c).arrAt_in 1 rfl _).trans ((blendA_eq (E0 m ρ) c 1).trans rfl)))

/-! ## The proof data of both regions and the state between segments -/

/-- No region has a prefetched table. -/
abbrev adm : (p : Fin 2) → (pcfgs (F := F) p).Adm := fun p => (cfgs p).toPCfg_adm
/-- Both regions' proof data, each at its region's entry contents. -/
def pdats : (p : Fin 2) → (c : Dev nD) → Dat τ (Elt F) Unit ℕ (UR sig nD τ) ℕ (Pipeline.pin (pcfgs (F := F)) adm p) c
  | ⟨0, _⟩ => fun c => blendDat (E0 m ρ) c
  | ⟨1, _⟩ => fun c => mmDat (E2 m ρ) c
abbrev 𝒱₀ : Variants := Variants.none
/-- No core owes another anything. -/
abbrev Lv : GSem nD τ sig → Finset Unit := fun _ => ∅
abbrev lv : GSem nD τ sig → Unit → ℕ := fun _ _ => 0
/-- What rides beside the buffers through every segment: the random-bit register at some state, nothing owed. -/
abbrev Ride (c : Dev nD) : sProp 𝕄 := iprop((∃ r, prngReg c r) ∗ ∃ W, owes (c : Thread nD τ) (0 : CellTallies nD τ sig Unit) W)

theorem hostOps1_fresh : (hostOps1 : List (HloOp τ sig (Elt F))).Forall fun op => op.fresh = ∅ := by
  simp only [List.Forall]; repeat' constructor

/-- The two host lines as a segment from the contents `S1`. -/
abbrev hostSeg : Pipeline.HostSeg (Name := ℕ) (U := UR sig nD τ) (pcfgs (F := F)) defs₀ 𝒱₀ Lv lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (S1 m ρ) Ride

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last state without the dues: every unscoped buffer at `S3`, the register at some state. -/
abbrev Tend (c : Dev nD) : sProp 𝕄 := iprop(StableHlo.held (c : Thread nD τ) (Pipeline.ucRefs τ sig) (S3 m ρ c) ∗ ∃ r, prngReg c r)

/-! ## The two regions as segments -/

set_option backward.isDefEq.respectTransparency.types false in
/-- The blend region: entered from every unscoped buffer at `S0`, left at `S1`.  Its three arrays are split out of
    the unscoped buffers and put back at the exit contents; the register goes into the invariant and comes out; nothing
    is owed; the kernel has no semaphore of its own. -/
def blendSeg : Pipeline.RegionSeg (pcfgs (F := F)) adm (pdats m ρ) () defs₀ 𝒱₀ Lv lv 0 where
  win := launch0.win.to₀
  block_pos := launch0.block_pos
  stage_whole := launch0.stage_whole
  K := PEmpty
  osem k := k.elim
  ho := Pipeline.OwnSemFacts.none _
  hbody c := (blendObligation (E0 m ρ) c).loose
  hwaits := Pipeline.hwaits_of_owed_zero _ _ _ _ Lv lv 0 fun _ _ => rfl
  pre c := iprop(StableHlo.held (c : Thread nD τ) (Pipeline.ucRefs τ sig) (S0 m ρ c) ∗ Ride c)
  post c := iprop(StableHlo.held (c : Thread nD τ) (Pipeline.ucRefs τ sig) (S1 m ρ c) ∗ Ride c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (E1 m ρ c) ((pdats m ρ 0 c).arrAt · cfg0.N) (blendFinal m ρ c) (blendKeeps m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matmul region: entered from every unscoped buffer at `S2`, left at `S3`.  As the blend region, except that
    the invariant between points names the accumulator's contents: it starts as the plain invariant (`mmEnter`) and
    ends as the plain one again (`mmLeave`). -/
def mmSeg : Pipeline.RegionSeg (pcfgs (F := F)) adm (pdats m ρ) () defs₀ 𝒱₀ Lv lv 1 where
  win := launch1.win.to₀
  block_pos := launch1.block_pos
  stage_whole := launch1.stage_whole
  K := PEmpty
  osem k := k.elim
  ho := Pipeline.OwnSemFacts.none _
  hbody c := (mmObligation (E2 m ρ) c).loose
  hwaits := Pipeline.hwaits_of_owed_zero _ _ _ _ Lv lv 1 fun _ _ => rfl
  pre c := iprop(StableHlo.held (c : Thread nD τ) (Pipeline.ucRefs τ sig) (S2 m ρ c) ∗ Ride c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (mmEnter (E2 m ρ) c)
    unfold Pipeline.ΦA
    iintro ⟨Hp, -, Hr⟩
    isplitl [Hr]; · iexact Hr
    iexact Hp
  hout c := by
    rw [Pipeline.ownSems0_none]
    refine BIBase.Entails.trans (mmLeave (E2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (mmFinal m ρ c) (mmKeeps m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ Lv lv) :=
  [ .region (blendSeg m ρ), .host (hostSeg m ρ), .region (mmSeg m ρ) ]

/-- The program is the run of its three segments. -/
theorem main_run (c : Dev nD) : main (F := F) c = Pipeline.Seg.run (segs m ρ) := (main_chain c).trans (by chain_rfl)

set_option backward.isDefEq.respectTransparency.types false in
/-- THE RUN.  From any launch memory with zero counters every weakly fair execution of the program terminates, nothing
    faulting, and in every final state every unscoped buffer of every core holds `S3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = S3 m ρ c b) :=
  Pipeline.θ_run_regions_kit (pcfgs (F := F)) adm (pdats m ρ) () cellOf_inj emb₁ defs₀ 𝒱₀ Lv lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (S0 m ρ c) ∗ Ride c)) (Tₙ := Tend m ρ)
    (hch := ⟨fun _ => .rfl, fun _ => .rfl, fun _ => .rfl, fun _ => .rfl⟩)
    (hinit := by
      refine Pipeline.initEach Lv lv fun c => ?_
      rw [show unscopedBufs c (fun b => m ((c : Thread nD τ).loc b)) = StableHlo.held (c : Thread nD τ) (Pipeline.ucRefs τ sig) (S0 m ρ c)
        from Pipeline.unscopedBufs_held c (S0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = S3 m ρ c b)
    (hfin := fun c s' => by
      iintro ⟨⟨Hh, -⟩, HSI⟩
      unfold StableHlo.held
      imodintro
      iapply (pointsTo_read_all (Pipeline.ucRefs τ sig) (fun b => (((c : Thread nD τ)).1, b)) (S3 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (S3_main_arg0 m ρ c),
     (h c _ (mem_uc main_arg1 (by decide))).trans (S3_main_arg1 m ρ c),
     (h c _ (mem_uc main_arg2 (by decide))).trans (S3_main_arg2 m ρ c),
     (h c _ (mem_uc main_arg3 (by decide))).trans (S3_main_arg3 m ρ c)⟩) (run_all m ρ)

end Cert.KernelIdeal.Hand

end
-- ==== Proof.Ideal.Payload.lean ====
/-
  The kernel bodies' pure values, read at an index on the extended reals.

  The program has two kernels.  The first blends the weights: from a block of integer base weights and a block of tags it
  forms, element by element, the base weight's value as a real plus the tag, and narrows the result to a 16-bit format;
  on the extended reals a change of format is the identity, so the stored block at `(r, k)` is `wb (r, k) + tag (r, k)`.
  The second is a tiled matrix product with an accumulator block: the block is first set to zero; each step adds to the
  accumulator's entry at `(p, q)` the sum over 2048 features `j` of `x (p, j) · w (q, j)` — both operands are contracted
  along their second axis — and the last step adds the bias row, the same for every `p`.  A cast of a block to its own
  shape changes nothing.

  The only step that is not a reading-off of definitions is the matrix product: it sums over a contraction index that is
  a one-coordinate index rather than a number below 2048, and reads its operands at indices computed from the dimension
  numbers.  The sum is re-indexed along the bijection between one-coordinate indices and `Fin 2048`, and the operand
  indices are identified coordinate by coordinate: the non-contracted coordinate is the output's row (left operand) or
  column (right operand), the contracted coordinate is `j`.
-/
import proofs.«144949_j90048284328682_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The weight kernel's stored block, read at row `r`, feature `k`: the base weight's integer value as a real plus the
    tag.  The narrowing to the 16-bit format at the end is the identity on the extended reals. -/
theorem blend_apply (wb : Vec Ideal S256x4096 .i32) (tag : Vec Ideal S256x4096 .f32) (r : Fin 256) (k : Fin 4096) :
    k0_pay1 (F := Ideal) wb tag (ix2 r k) = (((wb (ix2 r k)).toInt : ℝ) : EReal) + tag (ix2 r k) := rfl

/-- The block the accumulator is initialised with is zero everywhere: the splat of the bit pattern of `+0.0`. -/
theorem zero_apply (p q : Fin 1024) : k1_pay1 (F := Ideal) (ix2 p q) = 0 := by
  unfold k1_pay1
  rw [shapeCast_self]
  exact Ideal.ofBits_zero_f32

/-- At output position `(p, q)` and contracted feature `j`, the contraction's left operand index has first coordinate `p`. -/
theorem lhs_coord0 (i : S1024x1024.Idx) (c : dot_S1024x2048_S1024x2048_S1024x1024_1_1_0_0_n_n.contr.Idx) :
    (dot_S1024x2048_S1024x2048_S1024x1024_1_1_0_0_n_n.lhsIdx i c 0).val = (i 0).val := by
  unfold DotDims.lhsIdx
  rw [dif_neg (show ¬(0 : Fin S1024x2048.rank) ∈ dot_S1024x2048_S1024x2048_S1024x1024_1_1_0_0_n_n.lhsBatch by decide),
    dif_pos (show (0 : Fin S1024x2048.rank) ∈ dot_S1024x2048_S1024x2048_S1024x1024_1_1_0_0_n_n.lhsNonContracting by decide)]
  rfl

/-- Likewise the right operand index has first coordinate `q`, the output column. -/
theorem rhs_coord0 (i : S1024x1024.Idx) (c : dot_S1024x2048_S1024x2048_S1024x1024_1_1_0_0_n_n.contr.Idx) :
    (dot_S1024x2048_S1024x2048_S1024x1024_1_1_0_0_n_n.rhsIdx i c 0).val = (i 1).val := by
  unfold DotDims.rhsIdx
  rw [dif_neg (show ¬(0 : Fin S1024x2048.rank) ∈ dot_S1024x2048_S1024x2048_S1024x1024_1_1_0_0_n_n.rhsBatch by decide),
    dif_pos (show (0 : Fin S1024x2048.rank) ∈ dot_S1024x2048_S1024x2048_S1024x1024_1_1_0_0_n_n.rhsNonContracting by decide)]
  rfl

/-- One accumulation step, read at `(p, q)`: the accumulator's entry plus the sum over the 2048 features `j` of the block
    of `x` at `(p, j)` times the block of the weight at `(q, j)`.  The matrix product is taken into a zero block and
    then added to the accumulator; the casts to the same shape are identities. -/
theorem accum_apply (a : Vec Ideal S1024x1024 .f32) (x w : Vec Ideal S1024x2048 .bf16) (p q : Fin 1024) :
    k1_pay2 (F := Ideal) a x w (ix2 p q) = a (ix2 p q) + ∑ j : Fin 2048, x (ix2 p j) * w (ix2 q j) := by
  unfold k1_pay2
  rw [shapeCast_self, shapeCast_self, shapeCast_self]
  show a (ix2 p q) + FloatOps.matmul (F := Ideal) dot_S1024x2048_S1024x2048_S1024x1024_1_1_0_0_n_n none x w (constant S1024x1024 .f32 0x00000000#32) (ix2 p q) = _
  rw [Ideal.matmul_constant_zero_apply,
    ← Equiv.sum_comp (contrEquiv1 dot_S1024x2048_S1024x2048_S1024x1024_1_1_0_0_n_n 2048 rfl rfl).symm]
  refine congrArg (a (ix2 p q) + ·) (Finset.sum_congr rfl fun j _ => ?_)
  have hj := contrEquiv1_symm_val dot_S1024x2048_S1024x2048_S1024x1024_1_1_0_0_n_n 2048 rfl rfl j
  have el : dot_S1024x2048_S1024x2048_S1024x1024_1_1_0_0_n_n.lhsIdx (ix2 p q) ((contrEquiv1 dot_S1024x2048_S1024x2048_S1024x1024_1_1_0_0_n_n 2048 rfl rfl).symm j) = ix2 p j :=
    funext fun ax => Fin.ext (by
      match ax with
      | ⟨0, _⟩ => exact lhs_coord0 _ _
      | ⟨1, _⟩ => exact (dot_S1024x2048_S1024x2048_S1024x1024_1_1_0_0_n_n.lhsIdx_val_of_single rfl _ _).trans hj)
  have er : dot_S1024x2048_S1024x2048_S1024x1024_1_1_0_0_n_n.rhsIdx (ix2 p q) ((contrEquiv1 dot_S1024x2048_S1024x2048_S1024x1024_1_1_0_0_n_n 2048 rfl rfl).symm j) = ix2 q j :=
    funext fun ax => Fin.ext (by
      match ax with
      | ⟨0, _⟩ => exact rhs_coord0 _ _
      | ⟨1, _⟩ => exact (dot_S1024x2048_S1024x2048_S1024x1024_1_1_0_0_n_n.rhsIdx_val_of_single rfl _ _).trans hj)
  rw [el, er]

/-- The final block, read at `(p, q)`: the accumulator's entry plus the bias row's entry at `q`, the one row of the bias
    block being repeated down all 1024 rows. -/
theorem bias_apply (a : Vec Ideal S1024x1024 .f32) (b : Vec Ideal S1x1024 .f32) (p q : Fin 1024) :
    k1_pay3 (F := Ideal) a b (ix2 p q) = a (ix2 p q) + b (ix2 0 q) := by
  unfold k1_pay3
  rw [shapeCast_self]
  show a (ix2 p q) + broadcastTo S1024x1024 b broadcasts_S1x1024_S1024x1024 (ix2 p q) = _
  rw [broadcastTo_1b_ab_apply]

end Cert.KernelIdeal.Payload

end
-- ==== Proof.Ideal.BlendValue.lean ====
/-
  The array the weight-blend region leaves, as one function of the arrays it finds.

  Grid point `t` of the 16-point grid works on rows `256·t … 256·t+255`: it reads those rows of the integer base weights
  and of the tags, and writes back the same rows of the output array.  What it writes is, entry by entry, the base
  weight's integer value as a real plus the tag (the narrowing to the 16-bit format is the identity on the extended
  reals).  All three windows use the same index map — block row `t`, block column `0` — so the entry written at local
  position `(r, k)` is computed from the inputs at the same array position `(256·t + r, k)`: each point writes exactly the
  rows `256·t … 256·t+255` of the array `blended wb tag = fun i => wb i + tag i`.  Every row `ρ < 4096` lies in the block
  of the point `ρ / 256`, and every point writes back, so the 16 blocks cover the whole 4096×4096 array and the array
  ends holding `blended` of the two input arrays as the region found them.
-/
import proofs.«144949_j90048284328682_2_alg».proof.Proof.Ideal.Blend
import proofs.«144949_j90048284328682_2_alg».proof.Proof.Ideal.Payload
import Idealize.ShloMosaic.Lib.Pipeline.Value
import Idealize.ShloMosaic.Lib.ValueIdx

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

-- the core's buffer contents when the region is entered, on the extended reals
variable (V : (c : Dev nD) → (b : Ref sig .tc) → Buf (Elt Ideal) ((c : Thread nD τ).loc b))

/-- The blended weight array: at every position the base weight's integer value, as a real, plus the tag. -/
def blended (wb : S4096x4096.Idx → BitVec 32) (tag : S4096x4096.Idx → EReal) : S4096x4096.Idx → EReal :=
  fun i => (((wb i).toInt : ℝ) : EReal) + tag i

/-- The body's one store starts at the block's origin. -/
theorem origin_zero : (![0, 0] : Fin 2 → Nat) = fun _ => 0 := funext fun a => by fin_cases a <;> rfl

/-- The index maps, decided over the 16 grid points: the two input windows sit on the same block as the output
    window, and that block is block row `t`, block column `0`. -/
theorem blendIndex : ∀ t : Fin cfg0.N,
    win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) = t.val
    ∧ win0_2.index t (1 : Fin 2) = 0 :=
  (by decide +kernel : ∀ t : Fin grid0.N, _)

/-- What point `t` writes back is its block of rows of `blended` of the two input arrays as the region finds them. -/
theorem blendFlushed (c : Dev nD) (t : Fin cfg0.N) :
    (blendDat V c).flushed 2 t
      = ((cfg0.win 2).blk t).view.read (Elt Ideal) (blended (V c main_arg1) (V c main_arg2)) := by
  show (cfg0.win 2).cut (grid0.coords t) ((blendDat V c).after 2 t) = _
  rw [blendAfter2]
  unfold blendOut
  rw [View.canon_unit_zero origin_zero]
  simp only [View.ld_unit_zero (S := S256x4096) origin_zero]
  obtain ⟨e0, e1, e2, e3, -, -⟩ := blendIndex t
  funext j
  obtain ⟨r, k, rfl⟩ : ∃ (r : Fin 256) (k : Fin 4096), j = ix2 r k := ⟨j 0, j 1, eq_ix2 j⟩
  show k0_pay1 (F := Ideal) (blendBlk V c 0 t) (blendBlk V c 1 t) (ix2 r k)
      = blended (V c main_arg1) (V c main_arg2) (((cfg0.win 2).blk t).view.emb (ix2 r k))
  refine (Payload.blend_apply _ _ r k).trans ?_
  have h0 : blendBlk V c 0 t (ix2 r k) = V c main_arg1 (((cfg0.win 2).blk t).view.emb (ix2 r k)) := by
    show V c main_arg1 (((cfg0.win 0).blk t).view.emb (ix2 r k)) = _
    refine congrArg (V c main_arg1) (funext fun a => Fin.ext ?_)
    match a with
    | ⟨0, _⟩ =>
      show win0_0.index t (0 : Fin 2) * 256 + 1 * r.val = win0_2.index t (0 : Fin 2) * 256 + 1 * r.val
      omega
    | ⟨1, _⟩ =>
      show win0_0.index t (1 : Fin 2) * 4096 + 1 * k.val = win0_2.index t (1 : Fin 2) * 4096 + 1 * k.val
      omega
  have h1 : blendBlk V c 1 t (ix2 r k) = V c main_arg2 (((cfg0.win 2).blk t).view.emb (ix2 r k)) := by
    show V c main_arg2 (((cfg0.win 1).blk t).view.emb (ix2 r k)) = _
    refine congrArg (V c main_arg2) (funext fun a => Fin.ext ?_)
    match a with
    | ⟨0, _⟩ =>
      show win0_1.index t (0 : Fin 2) * 256 + 1 * r.val = win0_2.index t (0 : Fin 2) * 256 + 1 * r.val
      omega
    | ⟨1, _⟩ =>
      show win0_1.index t (1 : Fin 2) * 4096 + 1 * k.val = win0_2.index t (1 : Fin 2) * 4096 + 1 * k.val
      omega
  exact congrArg₂ (fun (a : BitVec 32) (b : EReal) => (((a.toInt : ℝ) : EReal)) + b) h0 h1

/-- An array position is in point `t`'s output block iff each coordinate is in the block's range on its axis. -/
theorem mem_blendBlock (t : Fin cfg0.N) (i : S4096x4096.Idx) :
    i ∈ ((cfg0.win 2).blk t).view.set ↔
      ∀ a : Fin 2, win0_2.index t a * S256x4096.size a ≤ (i a).val
        ∧ (i a).val < win0_2.index t a * S256x4096.size a + S256x4096.size a := by
  show i ∈ ((View.whole main_v0).slice (win0_2.rect t)).set ↔ _
  rw [View.set_slice_whole, Rect.mem_set_unit]
  exact Iff.rfl

/-- The 16 blocks tile the array: the position in row `ρ` lies in the block of point `ρ / 256`, which writes back. -/
theorem blendCovers (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  obtain ⟨t, ht⟩ : ∃ t : Fin cfg0.N, t.val = (i 0).val / 256 :=
    ⟨⟨(i 0).val / 256, by show (i 0).val / 256 < 16; omega⟩, rfl⟩
  obtain ⟨-, -, -, -, e4, e5⟩ := blendIndex t
  refine ⟨t, flush0_2 t, ?_⟩
  rw [mem_blendBlock]
  intro a
  match a with
  | ⟨0, _⟩ =>
    show win0_2.index t (0 : Fin 2) * 256 ≤ (i 0).val ∧ (i 0).val < win0_2.index t (0 : Fin 2) * 256 + 256
    omega
  | ⟨1, _⟩ =>
    show win0_2.index t (1 : Fin 2) * 4096 ≤ (i 1).val ∧ (i 1).val < win0_2.index t (1 : Fin 2) * 4096 + 4096
    omega

/-- The output array after the region: the blended weights, everywhere. -/
theorem blendFinalValue (c : Dev nD) :
    (blendDat V c).arrAt 2 cfg0.N = blended (V c main_arg1) (V c main_arg2) :=
  (blendDat V c).arrAt_eq_of_cover 2 _ (fun t _ => blendFlushed V c t) blendCovers

end Cert.KernelIdeal.HandValue

end
-- ==== Proof.Ideal.Pieces.lean ====
/-
  What one run of the matmul body leaves, read back as the body's pure values.

  A run of the body records, for each buffer it stores into, the list of its stores (last first), each store a
  rectangle and a payload.  Every store and every load of this body is through the whole block at offset zero, so a
  buffer ends holding the payload of the LAST store into it, a load of a buffer an earlier store of the same run covered
  reads that store's payload, and a load of an untouched buffer reads the contents the run was given.

  At an opening point the accumulator is stored twice: first the zero block, then one accumulation step whose accumulator
  operand is the zero block just read back; so it ends at the step from zero.  At a closing point the accumulator is
  stored once, one step from the contents `a` it was given; the output block is stored once, the accumulator read back
  after that store plus the bias row.  The two input blocks and the bias row are read as given.
-/
import proofs.«144949_j90048284328682_2_alg».proof.Proof.Ideal.MatmulFrame
import Idealize.ShloMosaic.Lib.Pipeline.Value

-- rectangles of these extents are compared coordinate by coordinate along the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every store and load of the body starts at its block's origin. -/
theorem pieceOrigin : (![0, 0] : Fin 2 → Nat) = fun _ => 0 := funext fun a => by fin_cases a <;> rfl

/-- After an opening run the accumulator holds one accumulation step from the zero block: the run stores the zero
    block, reads it back, and stores over it the step's result on the two input blocks. -/
theorem accOpenOf_eq (c : Dev nD) (t : Fin cfg1.N) (hc0 : isOpening (grid1.coords t)) (hc1 : ¬isClosing (grid1.coords t))
    (x w : Vec F S1024x2048 .bf16) (b : Vec F S1x1024 .f32) :
    accOpenOf c t hc0 hc1 x w b = k1_pay2 (k1_pay1 (F := F)) x w := by
  unfold accOpenOf
  unfold mmOpenRun
  dsimp only
  sl_unfold_words
  rw [View.canon_cons_unit_zero (S := S1024x1024) pieceOrigin, View.readCov_unit_zero (S := S1024x1024) _ pieceOrigin]
  simp only [View.readAt_eq_ld, (mmH0 t).read_unread, (mmH1 t).read_unread, View.ld_unit_zero (S := S1024x2048) pieceOrigin]

/-- After a closing run started from the accumulator `a`, the accumulator holds one accumulation step from `a`. -/
theorem accCloseOf_eq (c : Dev nD) (t : Fin cfg1.N) (hc0 : ¬isOpening (grid1.coords t)) (hc1 : isClosing (grid1.coords t))
    (x w : Vec F S1024x2048 .bf16) (b : Vec F S1x1024 .f32) (a : Vec F S1024x1024 .f32) :
    accCloseOf c t hc0 hc1 x w b a = k1_pay2 a x w := by
  unfold accCloseOf
  unfold mmCloseRun
  dsimp only
  sl_unfold_words
  rw [View.canon_unit_zero pieceOrigin]
  simp only [View.readAt_eq_ld, (mmH0 t).read_unread, (mmH1 t).read_unread, (Memref.isWhole_whole cc1_scratch0).read_unread,
    View.ld_unit_zero (S := S1024x2048) pieceOrigin, View.ld_unit_zero (S := S1024x1024) pieceOrigin]

/-- And the output block holds that step's result plus the bias row: the run reads the accumulator back after its
    store and adds the row to it. -/
theorem outCloseOf_eq (c : Dev nD) (t : Fin cfg1.N) (hc0 : ¬isOpening (grid1.coords t)) (hc1 : isClosing (grid1.coords t))
    (x w : Vec F S1024x2048 .bf16) (b : Vec F S1x1024 .f32) (a : Vec F S1024x1024 .f32) :
    outCloseOf c t hc0 hc1 x w b a = k1_pay3 (k1_pay2 a x w) b := by
  unfold outCloseOf
  unfold mmCloseRun
  dsimp only
  sl_unfold_words
  rw [View.canon_unit_zero pieceOrigin, View.readCov_unit_zero (S := S1024x1024) _ pieceOrigin]
  simp only [View.readAt_eq_ld, (mmH0 t).read_unread, (mmH1 t).read_unread, (mmH2 t).read_unread,
    (Memref.isWhole_whole cc1_scratch0).read_unread,
    View.ld_unit_zero (S := S1024x2048) pieceOrigin, View.ld_unit_zero (S := S1024x1024) pieceOrigin,
    View.ld_unit_zero (S := S1x1024) pieceOrigin]

end Cert.KernelIdeal.Hand

end
-- ==== Proof.Spec.lean ====
/-
  The function both programs compute, stated over plain index types and with no program in sight.

  A ternary-weight linear layer with a tag buffer: the effective weight of output feature `o` and input
  feature `k` is the integer base weight read as a real number plus the tag, `W o k = wb o k + tag o k`, and the
  layer maps a batch `x` of rows to `out n o = (Σ_k x n k · W o k) + bias o`, every operation on the extended reals.

  Two arrangements of the same sum appear.  `direct` contracts all 4096 input features at once.  `halves` is what an
  accumulator that starts at zero and takes the features in two halves of 2048 holds at the end:
  `((0 + Σ_{j<2048} x n j · W o j) + Σ_{j<2048} x n (2048+j) · W o (2048+j)) + bias o`.
  They agree because addition on the extended reals is associative and commutative with zero as its unit
  (`direct_eq_halves`); no finiteness is needed, since nothing is distributed or cancelled.
-/
import Idealize.ShloMosaic.PureOps.Ideal
import Idealize.ShloMosaic.Lib.ValueIdx
import Mathlib.Algebra.BigOperators.Fin

noncomputable section

open scoped BigOperators

namespace Cert.TagLinear

open Idealize.ShloMosaic Idealize.ShloMosaic.ValueIdx

/-- The batch of input rows and the result: 8192 rows of 4096 features. -/
abbrev SX : Shape := ⟨2, ![8192, 4096]⟩
/-- The weight arrays: 4096 output features by 4096 input features. -/
abbrev SW : Shape := ⟨2, ![4096, 4096]⟩
/-- The bias: one entry per output feature. -/
abbrev SB : Shape := ⟨1, ![4096]⟩

/-- The effective weight of output feature `o` at input feature `k`: the base weight, a signed integer read
    exactly, plus the tag. -/
def weight (wb : SW.Idx → BitVec 32) (tag : SW.Idx → EReal) (o k : Fin 4096) : EReal :=
  ((((wb (ix2 o k)).toInt : ℝ) : EReal)) + tag (ix2 o k)

/-- One term of the contraction: row `n` of the batch at feature `k` times the effective weight of `o` at `k`. -/
def term (x : SX.Idx → EReal) (wb : SW.Idx → BitVec 32) (tag : SW.Idx → EReal) (n : Fin 8192) (o k : Fin 4096) : EReal :=
  x (ix2 n k) * weight wb tag o k

/-- The layer with the contraction taken over all 4096 input features at once. -/
def direct (x : SX.Idx → EReal) (wb : SW.Idx → BitVec 32) (tag : SW.Idx → EReal) (bias : SB.Idx → EReal) : SX.Idx → EReal :=
  fun i => (∑ k : Fin 4096, term x wb tag (i 0) (i 1) k) + bias (ix1 (i 1))

/-- Feature `j` of the lower half of the input features. -/
def lo (j : Fin 2048) : Fin 4096 := ⟨j.val, by omega⟩
/-- Feature `j` of the upper half of the input features. -/
def hi (j : Fin 2048) : Fin 4096 := ⟨2048 + j.val, by omega⟩

/-- The layer as an accumulator builds it: from zero, the lower half of the features, then the upper half, then the bias. -/
def halves (x : SX.Idx → EReal) (wb : SW.Idx → BitVec 32) (tag : SW.Idx → EReal) (bias : SB.Idx → EReal) : SX.Idx → EReal :=
  fun i => ((0 + ∑ j : Fin 2048, term x wb tag (i 0) (i 1) (lo j)) + ∑ j : Fin 2048, term x wb tag (i 0) (i 1) (hi j)) + bias (ix1 (i 1))

end Cert.TagLinear

end
-- ==== Proof.Ideal.MatmulValue.lean ====
/-
  What the matmul region leaves in the result array, at the exact-arithmetic instance, for any contents `V` of the
  core's buffers at the region's entry.

  Write `X` for the batch as the region finds it (8192×4096), `Wt` for the blended weights (4096×4096) and `B` for the
  bias row (1×4096).  The result array is written back at the closing points only.  The closing point with block-row
  `i` and block-column `j` holds, at row `p` and column `q` of its block, the accumulator of the opening point before it
  — zero plus the products over the lower 2048 features — plus the products over the upper 2048 features, plus the
  bias: that is `halvesOf X Wt B` at row `1024·i + p`, column `1024·j + q`.  The 32 closing points' blocks tile the
  8192×4096 array, so the array ends holding `halvesOf X Wt B` everywhere.
-/
import proofs.«144949_j90048284328682_2_alg».proof.Proof.Ideal.Pieces
import proofs.«144949_j90048284328682_2_alg».proof.Proof.Ideal.Payload
import proofs.«144949_j90048284328682_2_alg».proof.Proof.Spec
import Idealize.ShloMosaic.Lib.Pipeline.Value
import Idealize.ShloMosaic.Lib.ValueIdx

set_option maxRecDepth 16384

noncomputable section

open scoped BigOperators

namespace Cert.KernelIdeal.HandValue

open Cert.KernelIdeal Cert.KernelIdeal.Gen Cert.KernelIdeal.Hand Cert.TagLinear
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The accumulated layer over a batch `X`, a weight array `Wt` and a bias row `B`: from zero, the lower half of the
    features, then the upper half, then the bias. -/
def halvesOf (X : S8192x4096.Idx → EReal) (Wt : S4096x4096.Idx → EReal) (B : S1x4096.Idx → EReal) : S8192x4096.Idx → EReal :=
  fun i => ((0 + ∑ j : Fin 2048, X (ix2 (i 0) (lo j)) * Wt (ix2 (i 1) (lo j)))
      + ∑ j : Fin 2048, X (ix2 (i 0) (hi j)) * Wt (ix2 (i 1) (hi j))) + B (ix2 (0 : Fin 1) (i 1))

theorem zeroOffsets : (![0, 0] : Fin 2 → Nat) = fun _ => 0 := funext fun a => by fin_cases a <;> rfl

/-- The block indices at a closing point `t` and at the opening point before it, decided over the grid: the batch
    block is block-row `t / 8` at the lower then the upper half of the features, the weight block is block-row
    `(t / 2) mod 4` at the same halves, the bias block and the result block follow the same block-row and block-column. -/
theorem closingIdx : ∀ t : Fin cfg1.N, t.val % 2 = 1 →
    win1_3.index t (0 : Fin 2) = t.val / 8 ∧ win1_3.index t (1 : Fin 2) = (t.val / 2) % 4
    ∧ win1_0.index t (0 : Fin 2) = t.val / 8 ∧ win1_0.index t (1 : Fin 2) = 1
    ∧ win1_1.index t (0 : Fin 2) = (t.val / 2) % 4 ∧ win1_1.index t (1 : Fin 2) = 1
    ∧ win1_2.index t (0 : Fin 2) = 0 ∧ win1_2.index t (1 : Fin 2) = (t.val / 2) % 4
    ∧ win1_0.index (prevPt t) (0 : Fin 2) = t.val / 8 ∧ win1_0.index (prevPt t) (1 : Fin 2) = 0
    ∧ win1_1.index (prevPt t) (0 : Fin 2) = (t.val / 2) % 4 ∧ win1_1.index (prevPt t) (1 : Fin 2) = 0 :=
  (by decide +kernel : ∀ t : Fin grid1.N, t.val % 2 = 1 → _)

/-! ## The blocks read at an index -/

/-- The batch block at point `t`, row `p`, feature `j` of the block. -/
theorem batchBlk_apply (c : Dev nD) (t : Fin cfg1.N) (p : Fin 1024) (j : Fin 2048) (n : Fin 8192) (k : Fin 4096)
    (hn : n.val = win1_0.index t (0 : Fin 2) * 1024 + p.val) (hk : k.val = win1_0.index t (1 : Fin 2) * 2048 + j.val) :
    mmBlk V c 0 t (ix2 p j) = V c main_v2 (ix2 n k) := by
  show V c main_v2 (((cfg1.win 0).blk t).view.emb (ix2 p j)) = V c main_v2 (ix2 n k)
  refine congrArg _ (funext fun a => Fin.ext ?_)
  match a with
  | ⟨0, _⟩ => show win1_0.index t (0 : Fin 2) * 1024 + 1 * p.val = n.val; omega
  | ⟨1, _⟩ => show win1_0.index t (1 : Fin 2) * 2048 + 1 * j.val = k.val; omega

/-- The weight block at point `t`, row `q`, feature `j` of the block. -/
theorem weightBlk_apply (c : Dev nD) (t : Fin cfg1.N) (q : Fin 1024) (j : Fin 2048) (o : Fin 4096) (k : Fin 4096)
    (ho : o.val = win1_1.index t (0 : Fin 2) * 1024 + q.val) (hk : k.val = win1_1.index t (1 : Fin 2) * 2048 + j.val) :
    mmBlk V c 1 t (ix2 q j) = V c main_v0 (ix2 o k) := by
  show V c main_v0 (((cfg1.win 1).blk t).view.emb (ix2 q j)) = V c main_v0 (ix2 o k)
  refine congrArg _ (funext fun a => Fin.ext ?_)
  match a with
  | ⟨0, _⟩ => show win1_1.index t (0 : Fin 2) * 1024 + 1 * q.val = o.val; omega
  | ⟨1, _⟩ => show win1_1.index t (1 : Fin 2) * 2048 + 1 * j.val = k.val; omega

/-- The bias block at point `t`, column `q` of the block. -/
theorem biasBlk_apply (c : Dev nD) (t : Fin cfg1.N) (q : Fin 1024) (o : Fin 4096)
    (h0 : win1_2.index t (0 : Fin 2) = 0) (ho : o.val = win1_2.index t (1 : Fin 2) * 1024 + q.val) :
    mmBlk V c 2 t (ix2 (0 : Fin 1) q) = V c main_v1 (ix2 (0 : Fin 1) o) := by
  show V c main_v1 (((cfg1.win 2).blk t).view.emb (ix2 (0 : Fin 1) q)) = V c main_v1 (ix2 (0 : Fin 1) o)
  refine congrArg _ (funext fun a => Fin.ext ?_)
  match a with
  | ⟨0, _⟩ => show win1_2.index t (0 : Fin 2) * 1 + 1 * 0 = 0; omega
  | ⟨1, _⟩ => show win1_2.index t (1 : Fin 2) * 1024 + 1 * q.val = o.val; omega

/-! ## What a closing point writes back -/

theorem lo_val (j : Fin 2048) : (lo j).val = j.val := rfl
theorem hi_val (j : Fin 2048) : (hi j).val = 2048 + j.val := rfl

/-- The algebra of one closing point, over plain blocks: if `x0`, `w0` are the rows `n` and `o` of the batch and of the
    weights at the lower 2048 features, `x1`, `w1` the same rows at the upper 2048 features, and `b` the bias at `o`, then
    two accumulation steps from the zero block followed by the bias step give `halvesOf` at `(n, o)`. -/
theorem closeValue_eq (x0 w0 x1 w1 : Vec Ideal S1024x2048 .bf16) (b : Vec Ideal S1x1024 .f32)
    (X : S8192x4096.Idx → EReal) (Wt : S4096x4096.Idx → EReal) (B : S1x4096.Idx → EReal)
    (p q : Fin 1024) (n : Fin 8192) (o : Fin 4096)
    (h0 : ∀ j : Fin 2048, x0 (ix2 p j) = X (ix2 n (lo j))) (h1 : ∀ j : Fin 2048, w0 (ix2 q j) = Wt (ix2 o (lo j)))
    (h2 : ∀ j : Fin 2048, x1 (ix2 p j) = X (ix2 n (hi j))) (h3 : ∀ j : Fin 2048, w1 (ix2 q j) = Wt (ix2 o (hi j)))
    (h4 : b (ix2 (0 : Fin 1) q) = B (ix2 (0 : Fin 1) o)) :
    k1_pay3 (F := Ideal) (k1_pay2 (k1_pay2 k1_pay1 x0 w0) x1 w1) b (ix2 p q) = halvesOf X Wt B (ix2 n o) := by
  refine (Payload.bias_apply _ _ p q).trans ?_
  rw [Payload.accum_apply, Payload.accum_apply, Payload.zero_apply]
  simp only [h0, h1, h2, h3, h4]
  rfl

/-- WHAT THE CLOSING POINT `t` WRITES BACK is block `t` of `halvesOf` of the three arrays as the region finds them. -/
theorem mmFlushed (c : Dev nD) (t : Fin cfg1.N) (hf : (cfg1.win 3).flush t = true) :
    (mmDat V c).flushed 3 t = ((cfg1.win 3).blk t).view.read (Elt Ideal) (halvesOf (V c main_v2) (V c main_v0) (V c main_v1)) := by
  have h : t.val % 2 = 1 := (flush1_3 t).mp hf
  show (cfg1.win 3).cut (grid1.coords t) ((mmDat V c).after 3 t) = _
  rw [mmAfter3, outAt_odd V c t h]
  obtain ⟨e30, e31, e00, e01, e10, e11, e20, e21, f00, f01, f10, f11⟩ := closingIdx t h
  have hN : t.val < 64 := lt_of_lt_of_eq t.isLt (show cfg1.N = 64 from N_1)
  funext y
  obtain ⟨p, q, rfl⟩ : ∃ (p q : Fin 1024), y = ix2 p q := ⟨y 0, y 1, eq_ix2 y⟩
  have hp : p.val < 1024 := p.isLt
  have hq : q.val < 1024 := q.isLt
  -- the element's place in the result array
  obtain ⟨n, hn⟩ : ∃ n : Fin 8192, n.val = t.val / 8 * 1024 + p.val := ⟨⟨t.val / 8 * 1024 + p.val, by omega⟩, rfl⟩
  obtain ⟨o, ho⟩ : ∃ o : Fin 4096, o.val = (t.val / 2) % 4 * 1024 + q.val := ⟨⟨(t.val / 2) % 4 * 1024 + q.val, by omega⟩, rfl⟩
  have hemb : ((cfg1.win 3).blk t).view.emb (ix2 p q) = ix2 n o := funext fun a => Fin.ext (by
    match a with
    | ⟨0, _⟩ => show win1_3.index t (0 : Fin 2) * 1024 + 1 * p.val = n.val; omega
    | ⟨1, _⟩ => show win1_3.index t (1 : Fin 2) * 1024 + 1 * q.val = o.val; omega)
  show outCloseAt V c t h (ix2 p q)
      = halvesOf (V c main_v2) (V c main_v0) (V c main_v1) (((cfg1.win 3).blk t).view.emb (ix2 p q))
  rw [hemb]
  unfold outCloseAt accOpenAt
  rw [outCloseOf_eq, accOpenOf_eq]
  exact closeValue_eq (mmBlk V c 0 (prevPt t)) (mmBlk V c 1 (prevPt t)) (mmBlk V c 0 t) (mmBlk V c 1 t) (mmBlk V c 2 t)
    (V c main_v2) (V c main_v0) (V c main_v1) p q n o
    (fun j => batchBlk_apply V c (prevPt t) p j n (lo j) (by omega) (by have := lo_val j; omega))
    (fun j => weightBlk_apply V c (prevPt t) q j o (lo j) (by omega) (by have := lo_val j; omega))
    (fun j => batchBlk_apply V c t p j n (hi j) (by omega) (by have := hi_val j; omega))
    (fun j => weightBlk_apply V c t q j o (hi j) (by omega) (by have := hi_val j; omega))
    (biasBlk_apply V c t q o e20 (by omega))

/-! ## The closing points' blocks tile the result array -/

/-- An index of the result array is in point `t`'s block iff each coordinate is in the block's range on its axis. -/
theorem mem_resultBlk (t : Fin cfg1.N) (i : S8192x4096.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v3).slice (win1_3.rect t)).set ↔ _
  rw [View.set_slice_whole, Rect.mem_set_unit]
  exact Iff.rfl

/-- Every index of the result array is in the block of a closing point. -/
theorem resultCover (i : S8192x4096.Idx) :
    ∃ t : Fin cfg1.N, (cfg1.win 3).flush t = true ∧ i ∈ ((cfg1.win 3).blk t).view.set := by
  have hi0 : (i 0).val < 8192 := (i 0).isLt
  have hi1 : (i 1).val < 4096 := (i 1).isLt
  have hN : cfg1.N = 64 := N_1
  obtain ⟨t, tv⟩ : ∃ t : Fin cfg1.N, t.val = ((i 0).val / 1024 * 4 + (i 1).val / 1024) * 2 + 1 :=
    ⟨⟨((i 0).val / 1024 * 4 + (i 1).val / 1024) * 2 + 1, by rw [hN]; omega⟩, rfl⟩
  have ht : t.val % 2 = 1 := by omega
  obtain ⟨e30, e31, -⟩ := closingIdx t ht
  refine ⟨t, (flush1_3 t).mpr ht, ?_⟩
  rw [mem_resultBlk]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 1024 ≤ (i 1).val ∧ (i 1).val < win1_3.index t (1 : Fin 2) * 1024 + 1024; omega

/-- THE RESULT ARRAY after the region: the accumulated layer of the three arrays as the region finds them. -/
theorem mmFinalValue (c : Dev nD) :
    (mmDat V c).arrAt 3 cfg1.N = halvesOf (V c main_v2) (V c main_v0) (V c main_v1) :=
  (mmDat V c).arrAt_eq_of_cover 3 _ (fun t hf => mmFlushed V c t hf) resultCover

end Cert.KernelIdeal.HandValue

end
-- ==== Proof.Ideal.Result.lean ====
/-
  The result of the whole program at the exact-arithmetic instance, as one function of the four argument arrays.

  The matmul region finds: the batch rounded to bf16, which at this instance is the batch itself; the blended weights
  the first region left, `wb + tag` index by index; and the bias reshaped to one row, entry `(0, o)` being `bias o`.
  So the result array ends holding the accumulated layer of the argument arrays, `Cert.TagLinear.halves`.
-/
import proofs.«144949_j90048284328682_2_alg».proof.Proof.Ideal.Run
import proofs.«144949_j90048284328682_2_alg».proof.Proof.Ideal.BlendValue
import proofs.«144949_j90048284328682_2_alg».proof.Proof.Ideal.MatmulValue
import proofs.«144949_j90048284328682_2_alg».proof.Proof.Spec
import Idealize.ShloMosaic.Lib.Pipeline.Value
import Idealize.ShloMosaic.Lib.ValueIdx
import Idealize.ShloMosaic.Lib.StableHlo.Run

set_option maxRecDepth 16384

noncomputable section

open scoped BigOperators

namespace Cert.KernelIdeal.HandValue

open Cert.KernelIdeal Cert.KernelIdeal.Gen Cert.KernelIdeal.Hand Cert.TagLinear
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The matmul region finds the batch as launched: the host line rounds it to bf16, the identity on extended reals,
    and the first region does not touch it. -/
theorem entry_batch (c : Dev nD) :
    (E2 m ρ c main_v2 : S8192x4096.Idx → EReal) = m ((c : Thread nD τ).loc main_arg0) := by
  have e : (E2 m ρ c main_v2 : S8192x4096.Idx → EReal)
      = truncf (F := Ideal) .bf16 (S1 m ρ c (Proc.devRef .tc main_arg0) : S8192x4096.Idx → EReal) bitsLt_bf16_f32 := by
    show StableHlo.after hostOps1 (S1 m ρ c) (Proc.devRef .tc main_v2) = _
    first | (after_results; rfl) | after_results
  rw [e, S1_of_ne m ρ c main_arg0 (by decide)]
  rfl

/-- It finds the blended weights the first region left. -/
theorem entry_weights (c : Dev nD) :
    (E2 m ρ c main_v0 : S4096x4096.Idx → EReal)
      = blended (m ((c : Thread nD τ).loc main_arg1)) (m ((c : Thread nD τ).loc main_arg2)) := by
  have e : (E2 m ρ c main_v0 : S4096x4096.Idx → EReal) = S1 m ρ c (Proc.devRef .tc main_v0) := by
    show StableHlo.after hostOps1 (S1 m ρ c) (Proc.devRef .tc main_v0) = _
    first | (after_results; rfl) | after_results
  rw [e, S1_arr m ρ c 2, blendFinalValue]

/-- It finds the bias as one row. -/
theorem entry_bias (c : Dev nD) (o : Fin 4096) :
    (E2 m ρ c main_v1 : S1x4096.Idx → EReal) (ix2 (0 : Fin 1) o) = m ((c : Thread nD τ).loc main_arg3) (ix1 o) := by
  have e : (E2 m ρ c main_v1 : S1x4096.Idx → EReal)
      = shapeCast S1x4096 (S1 m ρ c (Proc.devRef .tc main_arg3) : S4096.Idx → EReal) shapeCasts_S4096_S1x4096 := by
    show StableHlo.after hostOps1 (S1 m ρ c) (Proc.devRef .tc main_v1) = _
    first | (after_results; rfl) | after_results
  rw [e, S1_of_ne m ρ c main_arg3 (by decide)]
  refine (shapeCast_apply _ _ (ix2 (0 : Fin 1) o) (ix1 o) ?_).trans rfl
  rw [Shape.rowMajor_val_two, Shape.rowMajor_val_one]; show o.val = 0 * 4096 + o.val; omega

/-- THE RESULT: after the program the result array holds the accumulated layer of the argument arrays. -/
theorem result_value (c : Dev nD) :
    (S3 m ρ c (Proc.devRef .tc main_v3) : S8192x4096.Idx → EReal)
      = halves (m ((c : Thread nD τ).loc main_arg0)) (m ((c : Thread nD τ).loc main_arg1))
          (m ((c : Thread nD τ).loc main_arg2)) (m ((c : Thread nD τ).loc main_arg3)) := by
  rw [S3_result, mmFinalValue, entry_batch, entry_weights]
  funext i
  obtain ⟨n, o, rfl⟩ : ∃ (n : Fin 8192) (o : Fin 4096), i = ix2 n o := ⟨i 0, i 1, eq_ix2 i⟩
  unfold halvesOf halves term weight blended
  exact congrArg (_ + ·) (entry_bias m ρ c o)

end Cert.KernelIdeal.HandValue

end
-- ==== Proof.SpecLaw.lean ====
/-
  Splitting the contraction into halves changes nothing.

  A finite sum in a commutative additive monoid does not depend on how its terms are grouped.  For a family
  `f` indexed by `Fin 4096`, the indices `0, …, 2047` are the images `lo j` and the indices `2048, …, 4095` are the
  images `hi j` of `j : Fin 2048`; these are the two injections of `Fin 2048` into `Fin (2048 + 2048)`, so
  `Σ_k f k = Σ_j f (lo j) + Σ_j f (hi j)`, and putting a zero in front of the first sum changes nothing.  Applied to the
  terms `x n k · W o k` at each output position this identifies the layer contracted at once with the layer
  accumulated in two halves from zero.  Only the monoid laws are used, so the statement holds on the extended reals with
  no finiteness assumption on the data.
-/
import proofs.«144949_j90048284328682_2_alg».proof.Proof.Spec
import Mathlib.Algebra.BigOperators.Fin

noncomputable section

open scoped BigOperators

namespace Cert.TagLinear

open Idealize.ShloMosaic Idealize.ShloMosaic.ValueIdx

/-- A sum over 4096 indices in a commutative additive monoid, rearranged as an accumulator takes it: zero, plus
    the sum over the lower 2048 indices, plus the sum over the upper 2048 indices. -/
theorem sum_eq_zero_add_lo_add_hi {M : Type*} [AddCommMonoid M] (f : Fin 4096 → M) :
    ∑ k : Fin 4096, f k = (0 + ∑ j : Fin 2048, f (lo j)) + ∑ j : Fin 2048, f (hi j) := by
  rw [zero_add]
  exact Fin.sum_univ_add (a := 2048) (b := 2048) f

/-- Contracting all 4096 input features at once gives the same layer as accumulating the two halves of 2048
    features from zero: at every output position both are the same sum plus the same bias entry. -/
theorem direct_eq_halves (x : SX.Idx → EReal) (wb : SW.Idx → BitVec 32) (tag : SW.Idx → EReal)
    (bias : SB.Idx → EReal) : direct x wb tag bias = halves x wb tag bias := by
  funext i
  unfold direct halves
  rw [sum_eq_zero_add_lo_add_hi]

end Cert.TagLinear

end
-- ==== Proof.RefValue.lean ====
/-
  The reference program computes the layer with the contraction taken at once.

  The reference converts the integer base weights to reals exactly, adds the tag to get the effective weight
  `W o k = wb o k + tag o k`, contracts the batch `x` against `W` over the shared feature axis, and adds the bias
  broadcast along the rows.  Read at an output position `(n, o)`, one operation at a time:
    * the contraction's element is `Σ_k x (n, k) · W (o, k)`, the left operand read at row `n`, feature `k`, and the right
      operand at row `o`, feature `k`;
    * the two broadcasts of the bias read it at `o`, whatever `n` is;
    * on the extended reals the float addition is `+`, the multiplication is `*`, and the signed integer conversion is
      the integer's value as a real.
  Putting these together, the element at `(n, o)` is `(Σ_k x (n, k) · (wb (o, k) + tag (o, k))) + bias o`, which is the
  definition of `direct`.  The index identities below say that the positions at which the operands are read are the
  ones just named; each is checked coordinate by coordinate.
-/
import proofs.«144949_j90048284328682_2_alg».proof.Proof.Gen.ReferenceIdeal.Read
import proofs.«144949_j90048284328682_2_alg».proof.Proof.Spec

noncomputable section

open scoped BigOperators

namespace Cert.ReferenceIdeal.RefValue

open Cert.ReferenceIdeal Cert.ReferenceIdeal.Read Idealize.ShloMosaic Idealize.ShloMosaic.ValueIdx

/-- At output position `(n, o)` and contracted feature `k`, the contraction reads its left operand at `(n, k)`. -/
theorem lidx_ix2 (n : Fin 8192) (o k : Fin 4096) : lidx_main_v2 (ix2 n o) k = ix2 n k :=
  funext fun a => Fin.ext (by match a with | ⟨0, _⟩ => rfl | ⟨1, _⟩ => rfl)

/-- At output position `(n, o)` and contracted feature `k`, the contraction reads its right operand at `(o, k)`. -/
theorem ridx_ix2 (n : Fin 8192) (o k : Fin 4096) : ridx_main_v2 (ix2 n o) k = ix2 o k :=
  funext fun a => Fin.ext (by match a with | ⟨0, _⟩ => rfl | ⟨1, _⟩ => rfl)

/-- At output position `(n, o)` the two broadcasts read the bias at `o`. -/
theorem bidx_ix2 (n : Fin 8192) (o : Fin 4096) : idx_main_v3 (idx_main_v4 (ix2 n o)) = ix1 o :=
  funext fun a => Fin.ext (by match a with | ⟨0, _⟩ => rfl)

/-- The reference program's result, as a function of its four arguments, is the layer with the contraction over all
    4096 input features taken at once: at `(n, o)` it is `(Σ_k x (n, k) · (wb (o, k) + tag (o, k))) + bias o`. -/
theorem ref_is_direct (x0 : (⟨S8192x4096, .f32⟩ : BufTy).Contents (Elt Ideal))
    (x1 : (⟨S4096x4096, .i32⟩ : BufTy).Contents (Elt Ideal))
    (x2 : (⟨S4096x4096, .f32⟩ : BufTy).Contents (Elt Ideal))
    (x3 : (⟨S4096, .f32⟩ : BufTy).Contents (Elt Ideal)) :
    Cert.ReferenceIdeal.Read.val_main_v5 (F := Ideal) x0 x1 x2 x3 = Cert.TagLinear.direct x0 x1 x2 x3 := by
  funext i
  obtain ⟨n, o, rfl⟩ : ∃ (n : Fin 8192) (o : Fin 4096), i = ix2 n o := ⟨i 0, i 1, eq_ix2 i⟩
  rw [val_main_v5_apply, val_main_v2_apply, val_main_v4_apply, val_main_v3_apply, bidx_ix2]
  have hsum : ∀ k : Fin 4096,
      x0 (lidx_main_v2 (ix2 n o) k) * (val_main_v1 (F := Ideal) x1 x2) (ridx_main_v2 (ix2 n o) k)
        = Cert.TagLinear.term x0 x1 x2 n o k := by
    intro k
    rw [lidx_ix2, ridx_ix2, val_main_v1_apply, val_main_v0_apply]
    rfl
  rw [Finset.sum_congr rfl fun k _ => hsum k]
  rfl

end Cert.ReferenceIdeal.RefValue

end
-- ==== Proof.lean ====
/-
  A ternary-weight linear layer with a tag buffer, as two Pallas kernels against one einsum.

  The kernel program first blends the weights, `W = float(weight_base) + T_tag` rounded to bf16, in a 16-point
  pipelined kernel; then rounds the batch `x` to bf16 and reshapes the bias to a row on the host; then runs a tiled
  matmul on an 8 × 4 × 2 grid whose last axis splits the 4096 input features into two halves: a 1024×1024 accumulator
  kept in a scratch buffer is zeroed at the first half, takes one 1024×2048 by 2048×1024 product per half, and at the
  second half is written out with the bias row added.  The reference computes `einsum('ni,oi->no', x, W) + bias` with
  the same `W`, unrounded.

  At the exact-arithmetic instance every rounding is the identity, so the kernel's result at row `n`, column `o` is
  `((0 + Σ_{j<2048} x n j · W o j) + Σ_{j<2048} x n (2048+j) · W o (2048+j)) + bias o` and the reference's is
  `(Σ_{k<4096} x n k · W o k) + bias o`.  The two agree because addition of extended reals is associative and
  commutative with unit zero; nothing is distributed or cancelled, so the finiteness of the inputs is never used.

  The three frame claims: both kernel programs run to the end without a fault and leave their argument arrays as
  launched — every write-back goes to the blended-weight array or to the result array, and the host lines write only
  their own result buffers; the reference is a straight line of host operations.  No operation was rewritten when the
  kernel was idealized, so the `preserves` claim is trivial.
-/
import proofs.«144949_j90048284328682_2_alg».proof.Defs
import proofs.«144949_j90048284328682_2_alg».proof.Proof.Gen.Kernel
import proofs.«144949_j90048284328682_2_alg».proof.Proof.Gen.Kernel.Skeleton
import proofs.«144949_j90048284328682_2_alg».proof.Proof.Gen.Kernel.Launch
import proofs.«144949_j90048284328682_2_alg».proof.Proof.Gen.Kernel.Regions
import proofs.«144949_j90048284328682_2_alg».proof.Proof.Gen.Kernel.Points
import proofs.«144949_j90048284328682_2_alg».proof.Proof.Gen.KernelIdeal
import proofs.«144949_j90048284328682_2_alg».proof.Proof.Gen.KernelIdeal.Skeleton
import proofs.«144949_j90048284328682_2_alg».proof.Proof.Gen.KernelIdeal.Launch
import proofs.«144949_j90048284328682_2_alg».proof.Proof.Gen.KernelIdeal.Regions
import proofs.«144949_j90048284328682_2_alg».proof.Proof.Gen.KernelIdeal.Points
import proofs.«144949_j90048284328682_2_alg».proof.Proof.Gen.ReferenceIdeal
import proofs.«144949_j90048284328682_2_alg».proof.Proof.Gen.Pre_finite_inputs
import proofs.«144949_j90048284328682_2_alg».proof.Proof.Gen.ReferenceIdeal.Read
import proofs.«144949_j90048284328682_2_alg».proof.Proof.Bits.Run
import proofs.«144949_j90048284328682_2_alg».proof.Proof.Ideal.Run
import proofs.«144949_j90048284328682_2_alg».proof.Proof.Ideal.Result
import proofs.«144949_j90048284328682_2_alg».proof.Proof.SpecLaw
import proofs.«144949_j90048284328682_2_alg».proof.Proof.RefValue
import Idealize.ShloMosaic.Adequacy
import Idealize.ShloMosaic.Init

noncomputable section

namespace Cert.Proof

open Idealize.ShloMosaic Idealize.ShloMosaic.TcCoe Idealize.SL.Sem

/-- The kernel program as printed runs to the end and leaves its arguments as launched. -/
theorem frame_k : Cert.frame_Kernel (hKernel := Cert.Kernel.Gen.facts) (hPre_finite_inputs := Cert.Pre_finite_inputs.Gen.facts) :=
  fun m ρ _ => Cert.Kernel.Hand.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference is host operations only: its run, with the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the accumulated layer of the argument arrays in their result: the kernel's by its
    run read at the result array, the reference's by its run's term read as the direct contraction, which is the
    accumulated one. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.TagLinear.halves (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨?_, ?_, ?_, ?_, ?_⟩) (Cert.KernelIdeal.Hand.run_all m ρ)
    · exact (h c _ (Cert.KernelIdeal.Hand.mem_uc Cert.KernelIdeal.main_v3 (by decide))).trans (Cert.KernelIdeal.HandValue.result_value m ρ c)
    · exact (h c _ (Cert.KernelIdeal.Hand.mem_uc Cert.KernelIdeal.main_arg0 (by decide))).trans (Cert.KernelIdeal.Hand.S3_main_arg0 m ρ c)
    · exact (h c _ (Cert.KernelIdeal.Hand.mem_uc Cert.KernelIdeal.main_arg1 (by decide))).trans (Cert.KernelIdeal.Hand.S3_main_arg1 m ρ c)
    · exact (h c _ (Cert.KernelIdeal.Hand.mem_uc Cert.KernelIdeal.main_arg2 (by decide))).trans (Cert.KernelIdeal.Hand.S3_main_arg2 m ρ c)
    · exact (h c _ (Cert.KernelIdeal.Hand.mem_uc Cert.KernelIdeal.main_arg3 (by decide))).trans (Cert.KernelIdeal.Hand.S3_main_arg3 m ρ c)
  · refine (θ_run Cert.ReferenceIdeal.defs _ _).mono (fun _ h c => ⟨?_, (h c).2⟩) (Cert.ReferenceIdeal.Value.run (F := Ideal) m' ρ')
    rw [(h c).1, Cert.ReferenceIdeal.Read.val_main_v5_eq, Cert.ReferenceIdeal.RefValue.ref_is_direct, Cert.TagLinear.direct_eq_halves,
      (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
